-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S256x4096 .f32
  ∧ IdealRules.sign_bit.Statement Cert.KernelIdeal.S256x4096 .f32
  ∧ IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x4096 : Shape := ⟨3, ![1, 4096, 4096]⟩
abbrev S_ : Shape := ⟨0, ![]⟩

class Facts : Prop where
  bcast_S_S1x4096x4096 : S_.BroadcastsInDim S1x4096x4096 (![] : Fin 0 → Fin S1x4096x4096.rank)
  reducesTo_S1x4096x4096_S_d0_1_2 : S1x4096x4096.ReducesTo [0, 1, 2] S_
  h_S_ : 0 < S_.numel

variable [Facts]

def fn {F : FTy → Type} [FloatOps F] (main_arg0 : FVec F S1x4096x4096 .f32) : IVec S_ 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_c : IVec S_ 1 := constantI S_ 1 1#1
  let main_v3 : IVec S_ 1 := (fun x v => Host.reduce IntOp.andi x v reducesTo_S1x4096x4096_S_d0_1_2 h_S_) main_v2 main_c
  main_v3
-- ==== Kernel.lean ====
abbrev S1x4096x4096 : Shape := ⟨3, ![1, 4096, 4096]⟩
abbrev S4096x4096 : Shape := ⟨2, ![4096, 4096]⟩
abbrev S16x4096 : Shape := ⟨2, ![16, 4096]⟩
abbrev S256x4096 : Shape := ⟨2, ![256, 4096]⟩
abbrev S8x4096 : Shape := ⟨2, ![8, 4096]⟩
abbrev S4096 : Shape := ⟨1, ![4096]⟩
abbrev S1x4096 : Shape := ⟨2, ![1, 4096]⟩
abbrev S_ : Shape := ⟨0, ![]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S16x4096, .f32⟩
  | .hbm, ⟨3, _⟩ => ⟨S16x4096, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S4096x4096, .f32⟩
  | .hbm, ⟨11, _⟩ => ⟨S1x4096x4096, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [BitOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_2 : BitVec 32 := 0#32
  let v12 : BitVec 1 := Scalar.cmpi .ne v11 c0_i32_2
  v12

def k0_cond2 (i : grid0.Coords) : BitVec 1 :=
  let arg1 : BitVec 32 := BitVec.ofNat 32 (i 1).val
  let c0_i32_3 : BitVec 32 := 0#32
  let v13 : BitVec 1 := Scalar.cmpi .sgt arg1 c0_i32_3
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x4096x4096_S4096x4096 : S1x4096x4096.ShapeCasts S4096x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S4096 : S256x4096.Reduces [0] S4096
  shapeCasts_S4096_S1x4096 : S4096.ShapeCasts S1x4096
  shapeCasts_S1x4096_S1x4096 : S1x4096.ShapeCasts S1x4096
  broadcasts_S1x4096_S8x4096 : S1x4096.Broadcasts S8x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  reducesTo_S16x4096_S4096_d0 : S16x4096.ReducesTo [0] S4096
  h_S_ : 0 < S_.numel
  bcast_S4096_S1x4096_1 : S4096.BroadcastsInDim S1x4096 (![1] : Fin 1 → Fin S1x4096.rank)
  inb_S1x4096_S1x4096_0_0 : ∀ a, (![0, 0] : Fin 2 → Nat) a + S1x4096.size a ≤ S1x4096.size a
  h_S1x4096 : 0 < S1x4096.numel
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  shapeCasts_S4096x4096_S1x4096x4096 : S4096x4096.ShapeCasts S1x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S16x4096.size a
  hwx0_1 : ∀ i : grid0.Coords, EltTy.bits .f32 = 32 ∨ (Rect.block (s := S16x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S16x4096.size a
  hwx0_2 : ∀ i : grid0.Coords, EltTy.bits .f32 = 32 ∨ (Rect.block (s := S16x4096) S8x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x4096x4096 : Shape := ⟨3, ![1, 4096, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩

abbrev nBuf : Space → Nat
  | .hbm => 155
  | .vmem => 0
  | .smem => 0
  | _ => 0

abbrev hbmTy0_0 (i : Nat) : BufTy := match i % 128 with
  | 0 => ⟨S1x4096x4096, .f32⟩
  | 1 => ⟨S4096x4096, .f32⟩
  | 2 => ⟨S_, .f32⟩
  | 3 => ⟨S4096, .f32⟩
  | 4 => ⟨S_, .f32⟩
  | 5 => ⟨S4096, .f32⟩
  | 6 => ⟨S4096, .f32⟩
  | 7 => ⟨S_, .f32⟩
  | 8 => ⟨S4096, .f32⟩
  | 9 => ⟨S4096, .i1⟩
  | 10 => ⟨S_, .f32⟩
  | 11 => ⟨S4096, .f32⟩
  | 12 => ⟨S4096, .f32⟩
  | 13 => ⟨S1x4096, .f32⟩
  | 14 => ⟨S4096x4096, .f32⟩
  | 15 => ⟨S4096x4096, .f32⟩
  | 16 => ⟨S1x4096, .f32⟩
  | 17 => ⟨S4096x4096, .f32⟩
  | 18 => ⟨S4096x4096, .f32⟩
  | 19 => ⟨S_, .f32⟩
  | 20 => ⟨S4096, .f32⟩
  | 21 => ⟨S4096x1, .f32⟩
  | 22 => ⟨S4096x4096, .f32⟩
  | 23 => ⟨S_, .f32⟩
  | 24 => ⟨S4096, .f32⟩
  | 25 => ⟨S4096x1, .f32⟩
  | 26 => ⟨S_, .f32⟩
  | 27 => ⟨S4096x4096, .f32⟩
  | 28 => ⟨S4096x4096, .f32⟩
  | 29 => ⟨S4096x4096, .f32⟩
  | 30 => ⟨S_, .f32⟩
  | 31 => ⟨S4096x4096, .f32⟩
  | 32 => ⟨S4096x4096, .f32⟩
  | 33 => ⟨S4096x4096, .f32⟩
  | 34 => ⟨S4096x4096, .f32⟩
  | 35 => ⟨S4096x4096, .f32⟩
  | 36 => ⟨S4096x4096, .f32⟩
  | 37 => ⟨S4096x4096, .f32⟩
  | 38 => ⟨S_, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S_, .f32⟩
  | 46 => ⟨S4096x1, .f32⟩
  | 47 => ⟨S4096x1, .f32⟩
  | 48 => ⟨S_, .f32⟩
  | 49 => ⟨S4096x4096, .f32⟩
  | 50 => ⟨S4096x4096, .f32⟩
  | 51 => ⟨S4096x4096, .f32⟩
  | 52 => ⟨S4096x4096, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S_, .f32⟩
  | 63 => ⟨S4096, .f32⟩
  | 64 => ⟨S4096x1, .f32⟩
  | 65 => ⟨S4096x4096, .f32⟩
  | 66 => ⟨S_, .f32⟩
  | 67 => ⟨S4096, .f32⟩
  | 68 => ⟨S4096x1, .f32⟩
  | 69 => ⟨S_, .f32⟩
  | 70 => ⟨S4096x4096, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S4096x4096, .f32⟩
  | 81 => ⟨S_, .f32⟩
  | 82 => ⟨S4096x4096, .f32⟩
  | 83 => ⟨S4096x4096, .f32⟩
  | 84 => ⟨S_, .f32⟩
  | 85 => ⟨S4096x4096, .f32⟩
  | 86 => ⟨S4096x4096, .f32⟩
  | 87 => ⟨S4096x4096, .f32⟩
  | 88 => ⟨S_, .f32⟩
  | 89 => ⟨S4096x1, .f32⟩
  | 90 => ⟨S4096x1, .f32⟩
  | 91 => ⟨S_, .f32⟩
  | 92 => ⟨S4096x4096, .f32⟩
  | 93 => ⟨S4096x4096, .f32⟩
  | 94 => ⟨S4096x4096, .f32⟩
  | 95 => ⟨S4096x4096, .f32⟩
  | 96 => ⟨S4096x4096, .f32⟩
  | 97 => ⟨S4096x4096, .f32⟩
  | 98 => ⟨S_, .f32⟩
  | 99 => ⟨S4096x4096, .f32⟩
  | 100 => ⟨S4096x4096, .f32⟩
  | 101 => ⟨S4096x4096, .f32⟩
  | 102 => ⟨S_, .f32⟩
  | 103 => ⟨S4096x4096, .f32⟩
  | 104 => ⟨S4096x4096, .f32⟩
  | 105 => ⟨S_, .f32⟩
  | 106 => ⟨S4096, .f32⟩
  | 107 => ⟨S4096x1, .f32⟩
  | 108 => ⟨S4096x4096, .f32⟩
  | 109 => ⟨S_, .f32⟩
  | 110 => ⟨S4096, .f32⟩
  | 111 => ⟨S4096x1, .f32⟩
  | 112 => ⟨S_, .f32⟩
  | 113 => ⟨S4096x4096, .f32⟩
  | 114 => ⟨S4096x4096, .f32⟩
  | 115 => ⟨S4096x4096, .f32⟩
  | 116 => ⟨S_, .f32⟩
  | 117 => ⟨S4096x4096, .f32⟩
  | 118 => ⟨S4096x4096, .f32⟩
  | 119 => ⟨S4096x4096, .f32⟩
  | 120 => ⟨S4096x4096, .f32⟩
  | 121 => ⟨S4096x4096, .f32⟩
  | 122 => ⟨S4096x4096, .f32⟩
  | 123 => ⟨S4096x4096, .f32⟩
  | 124 => ⟨S_, .f32⟩
  | 125 => ⟨S4096x4096, .f32⟩
  | 126 => ⟨S4096x4096, .f32⟩
  | 127 => ⟨S_, .f32⟩
  | _ => ⟨S1x4096x4096, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S_, .f32⟩
  | 4 => ⟨S4096x1, .f32⟩
  | 5 => ⟨S4096x1, .f32⟩
  | 6 => ⟨S_, .f32⟩
  | 7 => ⟨S4096x4096, .f32⟩
  | 8 => ⟨S4096x4096, .f32⟩
  | 9 => ⟨S4096x4096, .f32⟩
  | 10 => ⟨S4096x4096, .f32⟩
  | 11 => ⟨S4096x4096, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S1x4096, .f32⟩
  | 21 => ⟨S4096x4096, .f32⟩
  | 22 => ⟨S4096x4096, .f32⟩
  | 23 => ⟨S1x4096, .f32⟩
  | 24 => ⟨S4096x4096, .f32⟩
  | 25 => ⟨S4096x4096, .f32⟩
  | 26 => ⟨S1x4096x4096, .f32⟩
  | _ => ⟨S1x4096x4096, .f32⟩

abbrev hbmTy (i : Nat) : BufTy := match i / 128 with
  | 0 => hbmTy0_0 i
  | 1 => hbmTy0_1 i
  | _ => ⟨S1x4096x4096, .f32⟩

abbrev bufTy : (tb : Table) → Fin (tcTables nBuf tb) → BufTy
  | .hbm, ⟨i, _⟩ => hbmTy i
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_7 : Ref sig .tc := ⟨.hbm, 38, rfl⟩
abbrev main_v29 : Ref sig .tc := ⟨.hbm, 39, rfl⟩
abbrev main_v30 : Ref sig .tc := ⟨.hbm, 40, rfl⟩
abbrev main_cst_8 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_11 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_12 : Ref sig .tc := ⟨.hbm, 59, rfl⟩
abbrev main_v45 : Ref sig .tc := ⟨.hbm, 60, rfl⟩
abbrev main_v46 : Ref sig .tc := ⟨.hbm, 61, rfl⟩
abbrev main_cst_13 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_14 : Ref sig .tc := ⟨.hbm, 66, rfl⟩
abbrev main_v50 : Ref sig .tc := ⟨.hbm, 67, rfl⟩
abbrev main_v51 : Ref sig .tc := ⟨.hbm, 68, rfl⟩
abbrev main_cst_15 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_16 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_17 : Ref sig .tc := ⟨.hbm, 81, rfl⟩
abbrev main_v62 : Ref sig .tc := ⟨.hbm, 82, rfl⟩
abbrev main_v63 : Ref sig .tc := ⟨.hbm, 83, rfl⟩
abbrev main_cst_18 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_19 : Ref sig .tc := ⟨.hbm, 88, rfl⟩
abbrev main_v67 : Ref sig .tc := ⟨.hbm, 89, rfl⟩
abbrev main_v68 : Ref sig .tc := ⟨.hbm, 90, rfl⟩
abbrev main_cst_20 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_21 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_22 : Ref sig .tc := ⟨.hbm, 102, rfl⟩
abbrev main_v78 : Ref sig .tc := ⟨.hbm, 103, rfl⟩
abbrev main_v79 : Ref sig .tc := ⟨.hbm, 104, rfl⟩
abbrev main_cst_23 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_24 : Ref sig .tc := ⟨.hbm, 109, rfl⟩
abbrev main_v83 : Ref sig .tc := ⟨.hbm, 110, rfl⟩
abbrev main_v84 : Ref sig .tc := ⟨.hbm, 111, rfl⟩
abbrev main_cst_25 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_26 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_27 : Ref sig .tc := ⟨.hbm, 124, rfl⟩
abbrev main_v95 : Ref sig .tc := ⟨.hbm, 125, rfl⟩
abbrev main_v96 : Ref sig .tc := ⟨.hbm, 126, rfl⟩
abbrev main_cst_28 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_29 : Ref sig .tc := ⟨.hbm, 131, rfl⟩
abbrev main_v100 : Ref sig .tc := ⟨.hbm, 132, rfl⟩
abbrev main_v101 : Ref sig .tc := ⟨.hbm, 133, rfl⟩
abbrev main_cst_30 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_31 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_32 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩

abbrev nD : Nat := 1
abbrev τ : Topo := Topo.v7x

variable {F : FTy → Type} [FloatOps F]

class Facts₀ : Prop where
  shapeCasts_S1x4096x4096_S4096x4096 : S1x4096x4096.ShapeCasts S4096x4096
  reducesTo_S4096x4096_S4096_d0 : S4096x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S4096_S4096x1_0 : S4096.BroadcastsInDim S4096x1 (![0] : Fin 1 → Fin S4096x1.rank)
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S_S4096x1 : S_.BroadcastsInDim S4096x1 (![] : Fin 0 → Fin S4096x1.rank)
  shapeCasts_S4096x4096_S1x4096x4096 : S4096x4096.ShapeCasts S1x4096x4096

variable [Facts₀]

class Facts : Prop extends Facts₀ where

variable [Facts]
-- ==== Proof.K.Region0.lean ====
/-
  Region 0 (the column minima and maxima of each half of the rows) at the buffer contents `V` the region is
  entered with, for any float instance: what each window's staging buffer holds after the body at every grid
  point, and the body obligation of the pipeline's proof data.

  The grid is 2 x 8: point t = 8 * i0 + i1 reads the block of 256 rows number t of the input. The two output
  windows are indexed by i0 alone, so their staging buffers are ACCUMULATORS over the eight points of one i0:
  at i1 = 0 the body overwrites them with the block's column minimum / maximum (broadcast to 8 rows), at
  i1 > 0 it stores the minimum / maximum of what they hold and the block's; they are written back at i1 = 7.
-/
import proofs.«165057_j79379585565572_2_alg».proof.Proof.Gen.Kernel.Launch
import proofs.«165057_j79379585565572_2_alg».proof.Proof.Gen.Kernel.Skeleton
import proofs.«165057_j79379585565572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point), for
    any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form -/

/-- The first branch (overwrite) is taken exactly where the second grid coordinate is 0. -/
theorem cond1_iff (i : grid0.Coords) : k0_cond1 i = 1#1 ↔ (i 1).val = 0 := by
  have h : (i 1).val < 8 := (i 1).isLt
  unfold k0_cond1
  generalize (i 1).val = n at h ⊢
  obtain rfl | rfl | rfl | rfl | rfl | rfl | rfl | rfl : n = 0 ∨ n = 1 ∨ n = 2 ∨ n = 3 ∨ n = 4 ∨ n = 5 ∨ n = 6 ∨ n = 7 := by omega
  all_goals decide

/-- The second branch (accumulate) is taken exactly where the second grid coordinate is positive. -/
theorem cond2_iff (i : grid0.Coords) : k0_cond2 i = 1#1 ↔ (i 1).val ≠ 0 := by
  have h : (i 1).val < 8 := (i 1).isLt
  unfold k0_cond2
  generalize (i 1).val = n at h ⊢
  obtain rfl | rfl | rfl | rfl | rfl | rfl | rfl | rfl : n = 0 ∨ n = 1 ∨ n = 2 ∨ n = 3 ∨ n = 4 ∨ n = 5 ∨ n = 6 ∨ n = 7 := by omega
  all_goals decide

/-- So at every point one of the two branches stores into each output window: no point is idle for it. -/
theorem live0_1 (i : grid0.Coords) : cfg0.idle 1 i = false := by
  show (!(k0_cond1 i == 1#1) && !(k0_cond2 i == 1#1)) = false
  by_cases h : (i 1).val = 0
  · rw [(cond1_iff i).mpr h]; rfl
  · rw [(cond2_iff i).mpr h]; simp
theorem live0_2 (i : grid0.Coords) : cfg0.idle 2 i = false := live0_1 i

/-- The second coordinate of point `t` is `t mod 8`. -/
theorem coord1_eq : ∀ t : Fin cfg0.N, (cfg0.grid.coords t 1).val = t.val % 8 :=
  (by decide +kernel : ∀ t : Fin grid0.N, (grid0.coords t 1).val = t.val % 8)

/-! ## The body's accesses: every load and store is of a whole staging buffer -/

abbrev rX : Rect S256x4096 := Rect.unit (s := S256x4096) ![0, 0] S256x4096.size inb_S256x4096_S256x4096_0_0
abbrev rO : Rect S8x4096 := Rect.unit (s := S8x4096) ![0, 0] S8x4096.size inb_S8x4096_S8x4096_0_0

/-! ## What the body leaves in each output window's buffer, in each of its two cases -/

/-- First point of a half (second coordinate 0): the minima buffer is overwritten with the block's column minima. -/
def outA_1 (x0 : Vec F S256x4096 .f32) : Vec F S8x4096 .f32 :=
  View.canon [⟨rO, k0_pay2 (View.ld x0 rX)⟩]
/-- and the maxima buffer with its column maxima. -/
def outA_2 (x0 : Vec F S256x4096 .f32) : Vec F S8x4096 .f32 :=
  View.canon [⟨rO, k0_pay3 (View.ld x0 rX)⟩]
/-- Later points of a half: the minima buffer holds the minimum of what it held (`xo`) and the block's column minima, -/
def outB_1 (x0 : Vec F S256x4096 .f32) (xo : Vec F S8x4096 .f32) : Vec F S8x4096 .f32 :=
  View.canon [⟨rO, k0_pay4 (View.ld x0 rX) (View.ld xo rO)⟩]
/-- and the maxima buffer the maximum of what it held and the block's column maxima. -/
def outB_2 (x0 : Vec F S256x4096 .f32) (xo : Vec F S8x4096 .f32) : Vec F S8x4096 .f32 :=
  View.canon [⟨rO, k0_pay5 (View.ld x0 rX) (View.ld xo rO)⟩]

/-- One whole-buffer store covers the buffer. -/
theorem coverO (p0 : Vec F S8x4096 .f32) (y : S8x4096.Idx) :
    ∃ pc ∈ ([⟨rO, p0⟩] : List (View.Piece (Elt F) S8x4096 .f32)), y ∈ pc.1.set :=
  View.cover_of_tiled [⟨rO, p0⟩] S8x4096.size (by rfl) y

/-! ## The body's triple, per case -/

set_option maxHeartbeats 1000000 in
/-- At a point whose second coordinate is 0 the body, on whole staging memrefs — the input's at contents `x0`, the
    outputs' at anything — runs to the continuation holding the input's as it was and the outputs' at
    `outA_1 x0`, `outA_2 x0`. -/
theorem sound_kernel0_A (c : Dev nD) (E : Set ℕ) (i : grid0.Coords) (h1 : k0_cond1 i = 1#1) (h2 : ¬k0_cond2 i = 1#1)
    (arg2 : Memref sig .tc .vmem S256x4096 .f32) (harg2 : arg2.IsWhole)
    (arg3 : Memref sig .tc .vmem S8x4096 .f32) (harg3 : arg3.IsWhole) (arg4 : Memref sig .tc .vmem S8x4096 .f32) (harg4 : arg4.IsWhole)
    (x0 : Vec F S256x4096 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (outA_1 x0)
            ∗ owns (c : Thread nD τ) arg4 fullShare (outA_2 x0)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverO _)
  iexists _; isplitr
  swap; · iexact H2
  ipureintro
  exact View.read_writes_eq_canon _ _ _ (coverO _)

set_option maxHeartbeats 1000000 in
/-- At a point whose second coordinate is positive the body, on whole staging memrefs — the input's at contents
    `x0`, the outputs' at their running contents `xo1`, `xo2` — runs to the continuation holding the input's as
    it was and the outputs' at `outB_1 x0 xo1`, `outB_2 x0 xo2`. -/
theorem sound_kernel0_B (c : Dev nD) (E : Set ℕ) (i : grid0.Coords) (h1 : ¬k0_cond1 i = 1#1) (h2 : k0_cond2 i = 1#1)
    (arg2 : Memref sig .tc .vmem S256x4096 .f32) (harg2 : arg2.IsWhole)
    (arg3 : Memref sig .tc .vmem S8x4096 .f32) (harg3 : arg3.IsWhole) (arg4 : Memref sig .tc .vmem S8x4096 .f32) (harg4 : arg4.IsWhole)
    (x0 : Vec F S256x4096 .f32) (xo1 xo2 : Vec F S8x4096 .f32) (K : PUnit → sProp 𝕄) :
    iprop(owns (c : Thread nD τ) arg2 fullShare x0 ∗ owns (c : Thread nD τ) arg3 fullShare xo1 ∗ owns (c : Thread nD τ) arg4 fullShare xo2
        ∗ (iprop(owns (c : Thread nD τ) arg2 fullShare x0 ∗ owns (c : Thread nD τ) arg3 fullShare (outB_1 x0 xo1)
            ∗ owns (c : Thread nD τ) arg4 fullShare (outB_2 x0 xo2)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverO _)
  iexists _; isplitr
  swap; · iexact H2
  ipureintro
  exact View.read_writes_eq_canon _ _ _ (coverO _)

/-! ## What the outputs hold after each point -/

/-- The minima accumulator after the body at position `n`: at the first point of a half the block's column minima,
    at a later one the minimum of the block's and what the point before left. -/
def accMin (c : Dev nD) : (n : ℕ) → n < cfg0.N → Vec F S8x4096 .f32
  | 0, hn => outA_1 (iblk0 V c 0 ⟨0, hn⟩)
  | n + 1, hn =>
    if (n + 1) % 8 = 0 then outA_1 (iblk0 V c 0 ⟨n + 1, hn⟩)
    else outB_1 (iblk0 V c 0 ⟨n + 1, hn⟩) (accMin c n (Nat.lt_of_succ_lt hn))

/-- The maxima accumulator, likewise. -/
def accMax (c : Dev nD) : (n : ℕ) → n < cfg0.N → Vec F S8x4096 .f32
  | 0, hn => outA_2 (iblk0 V c 0 ⟨0, hn⟩)
  | n + 1, hn =>
    if (n + 1) % 8 = 0 then outA_2 (iblk0 V c 0 ⟨n + 1, hn⟩)
    else outB_2 (iblk0 V c 0 ⟨n + 1, hn⟩) (accMax c n (Nat.lt_of_succ_lt hn))

theorem accMin_A (c : Dev nD) (t : Fin cfg0.N) (h0 : t.val % 8 = 0) :
    accMin V c t.val t.isLt = outA_1 (iblk0 V c 0 t) := by
  obtain ⟨n, hn⟩ := t
  cases n with
  | zero => exact rfl
  | succ n => exact (if_pos h0).trans rfl

theorem accMin_B (c : Dev nD) (t : Fin cfg0.N) (h0 : ¬t.val % 8 = 0) :
    accMin V c t.val t.isLt = outB_1 (iblk0 V c 0 t) (accMin V c (t.val - 1) (Nat.lt_of_le_of_lt (Nat.sub_le _ _) t.isLt)) := by
  obtain ⟨n, hn⟩ := t
  cases n with
  | zero => exact absurd (Nat.zero_mod _) h0
  | succ n => exact (if_neg h0).trans rfl

theorem accMax_A (c : Dev nD) (t : Fin cfg0.N) (h0 : t.val % 8 = 0) :
    accMax V c t.val t.isLt = outA_2 (iblk0 V c 0 t) := by
  obtain ⟨n, hn⟩ := t
  cases n with
  | zero => exact rfl
  | succ n => exact (if_pos h0).trans rfl

theorem accMax_B (c : Dev nD) (t : Fin cfg0.N) (h0 : ¬t.val % 8 = 0) :
    accMax V c t.val t.isLt = outB_2 (iblk0 V c 0 t) (accMax V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of pipeline 0 on core `c`: the arrays as the region finds them (`V`); after the body at point
    `t` the input's buffer at its block and the outputs' at the accumulators; the invariant that of a body touching nothing
    but its windows' staging buffers; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accMin V c t.val t.isLt
    | ⟨2, _⟩ => accMax V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = accMin V c t.val t.isLt := by dsimp only [dat0]
theorem after0_2 (c : Dev nD) (t : Fin cfg0.N) : (dat0 V c).after 2 t = accMax V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a point that is not the first of its half each output's current staging buffer holds what the body left at
    the point before: the buffer was not written back between (that happens after the last point of a half only),
    and the window is live and uncut. -/
theorem before0_1_B (c : Dev nD) (t : Fin cfg0.N) (h0 : ¬t.val % 8 = 0) (d) :
    (dat0 V c).before 1 t d = accMin V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dat0]

theorem before0_2_B (c : Dev nD) (t : Fin cfg0.N) (h0 : ¬t.val % 8 = 0) (d) :
    (dat0 V c).before 2 t d = accMax V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    live0_2 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the input's memref holds its block; the point's second coordinate says which case it is
    in; at a later point of a half the outputs hold what the point before left; so the case's triple applies. The
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hco : (grid0.coords t 1).val = t.val % 8 := coord1_eq t
  by_cases h0 : t.val % 8 = 0
  · rw [accMin_A V c t h0, accMax_A V c t h0]
    have hc : (grid0.coords t 1).val = 0 := hco.trans h0
    iintro ⟨HΦ, Ho, ⟨%d0, H0⟩, ⟨%d1, H1⟩, ⟨%d2, H2⟩⟩
    iapply (sound_kernel0_A c Set.univ (grid0.coords t) ((cond1_iff _).mpr hc) (fun h => (cond2_iff _).mp h hc) _ _ _ _ _ _ (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accMin_B V c t h0, accMax_B V c t h0]
    simp only [before0_1_B V c t h0, before0_2_B V c t h0]
    have hc : (grid0.coords t 1).val ≠ 0 := fun h => h0 (hco.symm.trans h)
    iintro ⟨HΦ, Ho, ⟨%d0, H0⟩, ⟨%d1, H1⟩, ⟨%d2, H2⟩⟩
    iapply (sound_kernel0_B c Set.univ (grid0.coords t) (fun h => hc ((cond1_iff _).mp h)) ((cond2_iff _).mpr hc) _ _ _ _ _ _ (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point: each output window is live at every point (`live0_1`, `live0_2`),
    so what the body must leave there is the proof data's `after`. -/
theorem body_obligation0 (c : Dev nD) : BodyObligation (dat0 (F := F) V c) (defs₀ (F := F)) Variants.none () Set.univ := fun t => by
  rw [bigSep_W0, bigSep_W0]
  have e1 : idle0 1 (grid0.coords t) = false := live0_1 _
  have e2 : idle0 2 (grid0.coords t) = false := live0_2 _
  simp only [e1, e2]
  exact sound_body0 V c t

end Cert.Kernel.Hand

end
-- ==== Proof.K.Region1.lean ====
/- Region 1 of @main (custom_call 1, the row-normalising kernel, pipeline 1) at the entry contents V: each window's
   block at a point, the output block the body leaves as one term of the three input blocks, the body's triple,
   the pipeline's proof data and the body obligation, all at any float instance. -/
import proofs.«165057_j79379585565572_2_alg».proof.Proof.Gen.Kernel.Launch
import proofs.«165057_j79379585565572_2_alg».proof.Proof.Gen.Kernel.Skeleton
import proofs.«165057_j79379585565572_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 256 x 4096 entries: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (256 rows of x) holds its block at every point, for any proof data whose array is V's and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the column minima, one row) is fetched at the first point only; its block index never moves, so
    its buffer holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the column maxima, one row): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 256 x 4096 block. -/
abbrev r1_0 : Rect S256x4096 := Rect.unit (s := S256x4096) ![0, 0] S256x4096.size inb_S256x4096_S256x4096_0_0
/-- The whole 1 x 4096 row. -/
abbrev r1_1 : Rect S1x4096 := Rect.unit (s := S1x4096) ![0, 0] S1x4096.size inb_S1x4096_S1x4096_0_0

/-! ## What the body leaves in the output window's buffer -/

/-- The stored value from the three loaded blocks: x normalised by the column range, three damping rounds, and the
    result mapped back (the payloads' chain, innermost first: the normalised block, its root term, centred copy and
    that copy's word; the second round's; the third round's; the last step with the rescaling and the column minima). -/
def pay1_3 (v0 : Vec F S256x4096 .f32) (v2 : Vec F S1x4096 .f32) (v4 : Vec F S1x4096 .f32) : FVec F S256x4096 .f32 :=
  have v16 : FVec F S256x4096 .f32 := k1_pay4 v0 v2 v4
  have v36 : FVec F S256x4096 .f32 := k1_pay6 v0 v2 v4
  have v40 : FVec F S256x4096 .f32 := k1_pay7 v0 v2 v4
  have v41 : IVec S256x4096 32 := k1_pay8 v0 v2 v4
  have v58 : FVec F S256x4096 .f32 := k1_pay9 v16 v36 v40 v41 2147483648#32
  have v78 : FVec F S256x4096 .f32 := k1_pay11 v16 v36 v40 v41 2147483648#32
  have v82 : FVec F S256x4096 .f32 := k1_pay12 v16 v36 v40 v41 2147483648#32
  have v87 : IVec S256x4096 32 := k1_pay13 v16 v36 v40 v41 2147483648#32
  k1_pay1 (k1_pay2 v2) (k1_pay3 v2 v4) (k1_pay14 v58 v78 v82 v87) (k1_pay16 v58 v78 v82 v87) (k1_pay17 v58 v78 v82 v87) (k1_pay18 (F := F))

/-- Window 3's staging buffer after the body, from the input windows' blocks: its one store as a piece. -/
def out1_3 (x0 : Vec F S256x4096 .f32) (x1 : Vec F S1x4096 .f32) (x2 : Vec F S1x4096 .f32) : Vec F S256x4096 .f32 :=
  View.canon [⟨r1_0, pay1_3 (View.ld x0 r1_0) (View.ld x1 r1_1) (View.ld x2 r1_1)⟩]

/-- The store's rectangle is the whole buffer, so it covers it. -/
theorem cover1_3 (p0 : Vec F S256x4096 .f32) (y : S256x4096.Idx) :
    ∃ pc ∈ ([⟨r1_0, p0⟩] : List (View.Piece (Elt F) S256x4096 .f32)), y ∈ pc.1.set :=
  View.cover_of_tiled [⟨r1_0, p0⟩] S256x4096.size (by rfl) y

/-! ## The body's triple -/

set_option maxHeartbeats 1000000 in
/-- The kernel body on whole staging memrefs, the inputs' at contents x0, x1, x2 and the output's at anything, runs to
    the continuation holding the inputs' as they were and the output's at out1_3 of the inputs'. -/
theorem sound_kernel1 (c : Dev nD) (E : Set ℕ) (i : grid1.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole)
    (x0 : Vec F S256x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__main_kernel i arg1 harg1 arg2 harg2 arg3 harg3 arg4 harg4) K := by
  simp only [cc1__main_kernel_eq_skeleton]; unfold cc1__main_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them (V); after the body at point t each
    input's buffer at its block and the output's at out1_3 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the program: its @main is five segments — a reshape of the argument, the column
  minimum/maximum kernel, the host reduction of the sixteen partial rows to one row each, the row kernel,
  and the reshape of the result. The contents of every unscoped buffer at each boundary are a fold from
  the launch memory: a host stretch applies its operations, a kernel region leaves its windows' arrays at
  what its write-backs leave and every other buffer as it found it. The run ends with every unscoped
  buffer at the last fold, from which the result and the unchanged argument are read.
-/
import proofs.«165057_j79379585565572_2_alg».proof.Proof.K.Region0
import proofs.«165057_j79379585565572_2_alg».proof.Proof.K.Region1
import proofs.«165057_j79379585565572_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the reshape of the argument): the first kernel's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the reductions of the partial rows): the second kernel's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch (the reshape of the result): the end. -/
abbrev W5 : Dev nD → Valuation τ sig (Elt F) := fun c => StableHlo.after hostOps2 (W4 m ρ c)

/-! ### The argument ends as launched: no host operation writes it, and each kernel only reads the array it is reshaped into -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first kernel over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## What the boundaries hold: each region's operands, and the result, as the operations' terms -/

/-- The first kernel reads the argument reshaped to a matrix. -/
theorem V1_main_v0 (c : Dev nD) :
    (V1 m ρ c main_v0 : S4096x4096.Idx → Elt F .f32) = shapeCast S4096x4096 (m ((c : Thread nD τ).loc main_arg0)) shapeCasts_S1x4096x4096_S4096x4096 := by
  show StableHlo.after hostOps0 (W0 m ρ c) (Proc.devRef .tc main_v0) = _
  after_results; rfl

/-- The second kernel's first operand is still that matrix: the first kernel only reads it and the host reductions do not write it. -/
theorem V3_main_v0 (c : Dev nD) : V3 m ρ c main_v0 = V1 m ρ c main_v0 :=
  calc W3 m ρ c (Proc.devRef .tc main_v0)
    _ = W2 m ρ c (Proc.devRef .tc main_v0) := StableHlo.after_of_writes_sub hostOps1 _ hostOps1_writes (r := main_v0) (by decide)
    _ = W1 m ρ c (Proc.devRef .tc main_v0) := (W2_arr m ρ c 0).trans (((dat0 (V1 m ρ) c).arrAt_in 0 rfl _).trans (A_eq0 (V1 m ρ) c 0))

/-- The partial rows the first kernel leaves. -/
theorem V2_main_v1_0 (c : Dev nD) : V2 m ρ c main_v1_0 = (dat0 (V1 m ρ) c).arrAt 1 cfg0.N := W2_arr m ρ c 1
theorem V2_main_v1_1 (c : Dev nD) : V2 m ρ c main_v1_1 = (dat0 (V1 m ρ) c).arrAt 2 cfg0.N := W2_arr m ρ c 2

/-- The second kernel's row of column minima: the host's minimum over the sixteen partial rows, as a one-row matrix. -/
theorem V3_main_v3 (c : Dev nD) :
    (V3 m ρ c main_v3 : S1x4096.Idx → Elt F .f32) = broadcastInDim S1x4096 ![1] bcast_S4096_S1x4096_1
      (Host.reduce FloatOps.minimumf (V2 m ρ c main_v1_0 : S16x4096.Idx → Elt F .f32) (constant (F := F) S_ .f32 0x7F800000#32) reducesTo_S16x4096_S4096_d0 h_S_) := by
  show StableHlo.after hostOps1 (W2 m ρ c) (Proc.devRef .tc main_v3) = _
  after_results

/-- The second kernel's row of column maxima. -/
theorem V3_main_v5 (c : Dev nD) :
    (V3 m ρ c main_v5 : S1x4096.Idx → Elt F .f32) = broadcastInDim S1x4096 ![1] bcast_S4096_S1x4096_1
      (Host.reduce FloatOps.maximumf (V2 m ρ c main_v1_1 : S16x4096.Idx → Elt F .f32) (constant (F := F) S_ .f32 0xFF800000#32) reducesTo_S16x4096_S4096_d0 h_S_) := by
  show StableHlo.after hostOps1 (W2 m ρ c) (Proc.devRef .tc main_v5) = _
  after_results

/-- The result: what the second kernel leaves, reshaped. -/
theorem W5_main_v7 (c : Dev nD) :
    (W5 m ρ c (Proc.devRef .tc main_v7) : S1x4096x4096.Idx → Elt F .f32) = shapeCast S1x4096x4096 ((dat1 (V3 m ρ) c).arrAt 3 cfg1.N : S4096x4096.Idx → Elt F .f32) shapeCasts_S4096x4096_S1x4096x4096 := by
  rw [← W4_arr m ρ c 3]
  show StableHlo.after hostOps2 (W4 m ρ c) (Proc.devRef .tc main_v7) = _
  after_results; rfl

/-- The run, read at the result and at the argument. -/
theorem run_result : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)) :=
  (θ_run defs _ _).mono (fun r h c => ⟨h c _ (mem_uc main_v7 (by decide)), (h c _ (mem_uc main_arg0 (by decide))).trans (W5_main_arg0 m ρ c)⟩) (run_all m ρ)

end Cert.Kernel.Hand

end
-- ==== Proof.KI.Region0.lean ====
/-
  Region 0 (the column minima and maxima of each half of the rows) at the buffer contents `V` the region is
  entered with, for any float instance: what each window's staging buffer holds after the body at every grid
  point, and the body obligation of the pipeline's proof data.

  The grid is 2 x 8: point t = 8 * i0 + i1 reads the block of 256 rows number t of the input. The two output
  windows are indexed by i0 alone, so their staging buffers are ACCUMULATORS over the eight points of one i0:
  at i1 = 0 the body overwrites them with the block's column minimum / maximum (broadcast to 8 rows), at
  i1 > 0 it stores the minimum / maximum of what they hold and the block's; they are written back at i1 = 7.
-/
import proofs.«165057_j79379585565572_2_alg».proof.Proof.Gen.KernelIdeal.Launch
import proofs.«165057_j79379585565572_2_alg».proof.Proof.Gen.KernelIdeal.Skeleton
import proofs.«165057_j79379585565572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point), for
    any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form -/

/-- The first branch (overwrite) is taken exactly where the second grid coordinate is 0. -/
theorem cond1_iff (i : grid0.Coords) : k0_cond1 i = 1#1 ↔ (i 1).val = 0 := by
  have h : (i 1).val < 8 := (i 1).isLt
  unfold k0_cond1
  generalize (i 1).val = n at h ⊢
  obtain rfl | rfl | rfl | rfl | rfl | rfl | rfl | rfl : n = 0 ∨ n = 1 ∨ n = 2 ∨ n = 3 ∨ n = 4 ∨ n = 5 ∨ n = 6 ∨ n = 7 := by omega
  all_goals decide

/-- The second branch (accumulate) is taken exactly where the second grid coordinate is positive. -/
theorem cond2_iff (i : grid0.Coords) : k0_cond2 i = 1#1 ↔ (i 1).val ≠ 0 := by
  have h : (i 1).val < 8 := (i 1).isLt
  unfold k0_cond2
  generalize (i 1).val = n at h ⊢
  obtain rfl | rfl | rfl | rfl | rfl | rfl | rfl | rfl : n = 0 ∨ n = 1 ∨ n = 2 ∨ n = 3 ∨ n = 4 ∨ n = 5 ∨ n = 6 ∨ n = 7 := by omega
  all_goals decide

/-- So at every point one of the two branches stores into each output window: no point is idle for it. -/
theorem live0_1 (i : grid0.Coords) : cfg0.idle 1 i = false := by
  show (!(k0_cond1 i == 1#1) && !(k0_cond2 i == 1#1)) = false
  by_cases h : (i 1).val = 0
  · rw [(cond1_iff i).mpr h]; rfl
  · rw [(cond2_iff i).mpr h]; simp
theorem live0_2 (i : grid0.Coords) : cfg0.idle 2 i = false := live0_1 i

/-- The second coordinate of point `t` is `t mod 8`. -/
theorem coord1_eq : ∀ t : Fin cfg0.N, (cfg0.grid.coords t 1).val = t.val % 8 :=
  (by decide +kernel : ∀ t : Fin grid0.N, (grid0.coords t 1).val = t.val % 8)

/-! ## The body's accesses: every load and store is of a whole staging buffer -/

abbrev rX : Rect S256x4096 := Rect.unit (s := S256x4096) ![0, 0] S256x4096.size inb_S256x4096_S256x4096_0_0
abbrev rO : Rect S8x4096 := Rect.unit (s := S8x4096) ![0, 0] S8x4096.size inb_S8x4096_S8x4096_0_0

/-! ## What the body leaves in each output window's buffer, in each of its two cases -/

/-- First point of a half (second coordinate 0): the minima buffer is overwritten with the block's column minima. -/
def outA_1 (x0 : Vec F S256x4096 .f32) : Vec F S8x4096 .f32 :=
  View.canon [⟨rO, k0_pay2 (View.ld x0 rX)⟩]
/-- and the maxima buffer with its column maxima. -/
def outA_2 (x0 : Vec F S256x4096 .f32) : Vec F S8x4096 .f32 :=
  View.canon [⟨rO, k0_pay3 (View.ld x0 rX)⟩]
/-- Later points of a half: the minima buffer holds the minimum of what it held (`xo`) and the block's column minima, -/
def outB_1 (x0 : Vec F S256x4096 .f32) (xo : Vec F S8x4096 .f32) : Vec F S8x4096 .f32 :=
  View.canon [⟨rO, k0_pay4 (View.ld x0 rX) (View.ld xo rO)⟩]
/-- and the maxima buffer the maximum of what it held and the block's column maxima. -/
def outB_2 (x0 : Vec F S256x4096 .f32) (xo : Vec F S8x4096 .f32) : Vec F S8x4096 .f32 :=
  View.canon [⟨rO, k0_pay5 (View.ld x0 rX) (View.ld xo rO)⟩]

/-- One whole-buffer store covers the buffer. -/
theorem coverO (p0 : Vec F S8x4096 .f32) (y : S8x4096.Idx) :
    ∃ pc ∈ ([⟨rO, p0⟩] : List (View.Piece (Elt F) S8x4096 .f32)), y ∈ pc.1.set :=
  View.cover_of_tiled [⟨rO, p0⟩] S8x4096.size (by rfl) y

/-! ## The body's triple, per case -/

set_option maxHeartbeats 1000000 in
/-- At a point whose second coordinate is 0 the body, on whole staging memrefs — the input's at contents `x0`, the
    outputs' at anything — runs to the continuation holding the input's as it was and the outputs' at
    `outA_1 x0`, `outA_2 x0`. -/
theorem sound_kernel0_A (c : Dev nD) (E : Set ℕ) (i : grid0.Coords) (h1 : k0_cond1 i = 1#1) (h2 : ¬k0_cond2 i = 1#1)
    (arg2 : Memref sig .tc .vmem S256x4096 .f32) (harg2 : arg2.IsWhole)
    (arg3 : Memref sig .tc .vmem S8x4096 .f32) (harg3 : arg3.IsWhole) (arg4 : Memref sig .tc .vmem S8x4096 .f32) (harg4 : arg4.IsWhole)
    (x0 : Vec F S256x4096 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (outA_1 x0)
            ∗ owns (c : Thread nD τ) arg4 fullShare (outA_2 x0)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverO _)
  iexists _; isplitr
  swap; · iexact H2
  ipureintro
  exact View.read_writes_eq_canon _ _ _ (coverO _)

set_option maxHeartbeats 1000000 in
/-- At a point whose second coordinate is positive the body, on whole staging memrefs — the input's at contents
    `x0`, the outputs' at their running contents `xo1`, `xo2` — runs to the continuation holding the input's as
    it was and the outputs' at `outB_1 x0 xo1`, `outB_2 x0 xo2`. -/
theorem sound_kernel0_B (c : Dev nD) (E : Set ℕ) (i : grid0.Coords) (h1 : ¬k0_cond1 i = 1#1) (h2 : k0_cond2 i = 1#1)
    (arg2 : Memref sig .tc .vmem S256x4096 .f32) (harg2 : arg2.IsWhole)
    (arg3 : Memref sig .tc .vmem S8x4096 .f32) (harg3 : arg3.IsWhole) (arg4 : Memref sig .tc .vmem S8x4096 .f32) (harg4 : arg4.IsWhole)
    (x0 : Vec F S256x4096 .f32) (xo1 xo2 : Vec F S8x4096 .f32) (K : PUnit → sProp 𝕄) :
    iprop(owns (c : Thread nD τ) arg2 fullShare x0 ∗ owns (c : Thread nD τ) arg3 fullShare xo1 ∗ owns (c : Thread nD τ) arg4 fullShare xo2
        ∗ (iprop(owns (c : Thread nD τ) arg2 fullShare x0 ∗ owns (c : Thread nD τ) arg3 fullShare (outB_1 x0 xo1)
            ∗ owns (c : Thread nD τ) arg4 fullShare (outB_2 x0 xo2)) -∗ K ⟨⟩))
      ⊢ wp frame (wpE (defs₀ (F := F)) Variants.none c none) E (cc0__minmax_kernel i arg2 harg2 arg3 harg3 arg4 harg4) K := by
  simp only [cc0__minmax_kernel_eq_skeleton]; unfold cc0__minmax_kernel_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverO _)
  iexists _; isplitr
  swap; · iexact H2
  ipureintro
  exact View.read_writes_eq_canon _ _ _ (coverO _)

/-! ## What the outputs hold after each point -/

/-- The minima accumulator after the body at position `n`: at the first point of a half the block's column minima,
    at a later one the minimum of the block's and what the point before left. -/
def accMin (c : Dev nD) : (n : ℕ) → n < cfg0.N → Vec F S8x4096 .f32
  | 0, hn => outA_1 (iblk0 V c 0 ⟨0, hn⟩)
  | n + 1, hn =>
    if (n + 1) % 8 = 0 then outA_1 (iblk0 V c 0 ⟨n + 1, hn⟩)
    else outB_1 (iblk0 V c 0 ⟨n + 1, hn⟩) (accMin c n (Nat.lt_of_succ_lt hn))

/-- The maxima accumulator, likewise. -/
def accMax (c : Dev nD) : (n : ℕ) → n < cfg0.N → Vec F S8x4096 .f32
  | 0, hn => outA_2 (iblk0 V c 0 ⟨0, hn⟩)
  | n + 1, hn =>
    if (n + 1) % 8 = 0 then outA_2 (iblk0 V c 0 ⟨n + 1, hn⟩)
    else outB_2 (iblk0 V c 0 ⟨n + 1, hn⟩) (accMax c n (Nat.lt_of_succ_lt hn))

theorem accMin_A (c : Dev nD) (t : Fin cfg0.N) (h0 : t.val % 8 = 0) :
    accMin V c t.val t.isLt = outA_1 (iblk0 V c 0 t) := by
  obtain ⟨n, hn⟩ := t
  cases n with
  | zero => exact rfl
  | succ n => exact (if_pos h0).trans rfl

theorem accMin_B (c : Dev nD) (t : Fin cfg0.N) (h0 : ¬t.val % 8 = 0) :
    accMin V c t.val t.isLt = outB_1 (iblk0 V c 0 t) (accMin V c (t.val - 1) (Nat.lt_of_le_of_lt (Nat.sub_le _ _) t.isLt)) := by
  obtain ⟨n, hn⟩ := t
  cases n with
  | zero => exact absurd (Nat.zero_mod _) h0
  | succ n => exact (if_neg h0).trans rfl

theorem accMax_A (c : Dev nD) (t : Fin cfg0.N) (h0 : t.val % 8 = 0) :
    accMax V c t.val t.isLt = outA_2 (iblk0 V c 0 t) := by
  obtain ⟨n, hn⟩ := t
  cases n with
  | zero => exact rfl
  | succ n => exact (if_pos h0).trans rfl

theorem accMax_B (c : Dev nD) (t : Fin cfg0.N) (h0 : ¬t.val % 8 = 0) :
    accMax V c t.val t.isLt = outB_2 (iblk0 V c 0 t) (accMax V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of pipeline 0 on core `c`: the arrays as the region finds them (`V`); after the body at point
    `t` the input's buffer at its block and the outputs' at the accumulators; the invariant that of a body touching nothing
    but its windows' staging buffers; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accMin V c t.val t.isLt
    | ⟨2, _⟩ => accMax V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = accMin V c t.val t.isLt := by dsimp only [dat0]
theorem after0_2 (c : Dev nD) (t : Fin cfg0.N) : (dat0 V c).after 2 t = accMax V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a point that is not the first of its half each output's current staging buffer holds what the body left at
    the point before: the buffer was not written back between (that happens after the last point of a half only),
    and the window is live and uncut. -/
theorem before0_1_B (c : Dev nD) (t : Fin cfg0.N) (h0 : ¬t.val % 8 = 0) (d) :
    (dat0 V c).before 1 t d = accMin V c (t.val - 1) (Nat.lt_of_le_of_lt (Nat.sub_le _ _) t.isLt) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dat0]

theorem before0_2_B (c : Dev nD) (t : Fin cfg0.N) (h0 : ¬t.val % 8 = 0) (d) :
    (dat0 V c).before 2 t d = accMax V c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    live0_2 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the input's memref holds its block; the point's second coordinate says which case it is
    in; at a later point of a half the outputs hold what the point before left; so the case's triple applies. The
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hco : (grid0.coords t 1).val = t.val % 8 := coord1_eq t
  by_cases h0 : t.val % 8 = 0
  · rw [accMin_A V c t h0, accMax_A V c t h0]
    have hc : (grid0.coords t 1).val = 0 := hco.trans h0
    iintro ⟨HΦ, Ho, ⟨%d0, H0⟩, ⟨%d1, H1⟩, ⟨%d2, H2⟩⟩
    iapply (sound_kernel0_A c Set.univ (grid0.coords t) ((cond1_iff _).mpr hc) (fun h => (cond2_iff _).mp h hc) _ _ _ _ _ _ (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accMin_B V c t h0, accMax_B V c t h0]
    simp only [before0_1_B V c t h0, before0_2_B V c t h0]
    have hc : (grid0.coords t 1).val ≠ 0 := fun h => h0 (hco.symm.trans h)
    iintro ⟨HΦ, Ho, ⟨%d0, H0⟩, ⟨%d1, H1⟩, ⟨%d2, H2⟩⟩
    iapply (sound_kernel0_B c Set.univ (grid0.coords t) (fun h => hc ((cond1_iff _).mp h)) ((cond2_iff _).mpr hc) _ _ _ _ _ _ (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point: each output window is live at every point (`live0_1`, `live0_2`),
    so what the body must leave there is the proof data's `after`. -/
theorem body_obligation0 (c : Dev nD) : BodyObligation (dat0 (F := F) V c) (defs₀ (F := F)) Variants.none () Set.univ := fun t => by
  rw [bigSep_W0, bigSep_W0]
  have e1 : idle0 1 (grid0.coords t) = false := live0_1 _
  have e2 : idle0 2 (grid0.coords t) = false := live0_2 _
  simp only [e1, e2]
  exact sound_body0 V c t

end Cert.KernelIdeal.Hand

end
-- ==== Proof.KI.Region1.lean ====
/- Region 1 of @main (custom_call 1, the row-normalising kernel, pipeline 1) at the entry contents V: each window's
   block at a point, the output block the body leaves as one term of the three input blocks, the body's triple,
   the pipeline's proof data and the body obligation, all at any float instance. -/
import proofs.«165057_j79379585565572_2_alg».proof.Proof.Gen.KernelIdeal.Launch
import proofs.«165057_j79379585565572_2_alg».proof.Proof.Gen.KernelIdeal.Skeleton
import proofs.«165057_j79379585565572_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 256 x 4096 entries: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (256 rows of x) holds its block at every point, for any proof data whose array is V's and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the column minima, one row) is fetched at the first point only; its block index never moves, so
    its buffer holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the column maxima, one row): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 256 x 4096 block. -/
abbrev r1_0 : Rect S256x4096 := Rect.unit (s := S256x4096) ![0, 0] S256x4096.size inb_S256x4096_S256x4096_0_0
/-- The whole 1 x 4096 row. -/
abbrev r1_1 : Rect S1x4096 := Rect.unit (s := S1x4096) ![0, 0] S1x4096.size inb_S1x4096_S1x4096_0_0

/-! ## What the body leaves in the output window's buffer -/

/-- The stored value from the three loaded blocks: x normalised by the column range, three damping rounds, and the
    result mapped back (the payloads' chain, innermost first: the normalised block, its root term and centred copy,
    the second round's, the third round with the rescaling, plus the column minima). -/
def pay1_3 (v0 : Vec F S256x4096 .f32) (v2 : Vec F S1x4096 .f32) (v4 : Vec F S1x4096 .f32) : FVec F S256x4096 .f32 :=
  k1_pay1
    (k1_pay12 (k1_pay3 v2 v4)
      (k1_pay8 (k1_pay4 v0 v2 v4) (k1_pay6 v0 v2 v4) (k1_pay7 v0 v2 v4))
      (k1_pay10 (k1_pay4 v0 v2 v4) (k1_pay6 v0 v2 v4) (k1_pay7 v0 v2 v4))
      (k1_pay11 (k1_pay4 v0 v2 v4) (k1_pay6 v0 v2 v4) (k1_pay7 v0 v2 v4)))
    (k1_pay13 (k1_pay2 v2))

/-- Window 3's staging buffer after the body, from the input windows' blocks: its one store as a piece. -/
def out1_3 (x0 : Vec F S256x4096 .f32) (x1 : Vec F S1x4096 .f32) (x2 : Vec F S1x4096 .f32) : Vec F S256x4096 .f32 :=
  View.canon [⟨r1_0, pay1_3 (View.ld x0 r1_0) (View.ld x1 r1_1) (View.ld x2 r1_1)⟩]

/-- The store's rectangle is the whole buffer, so it covers it. -/
theorem cover1_3 (p0 : Vec F S256x4096 .f32) (y : S256x4096.Idx) :
    ∃ pc ∈ ([⟨r1_0, p0⟩] : List (View.Piece (Elt F) S256x4096 .f32)), y ∈ pc.1.set :=
  View.cover_of_tiled [⟨r1_0, p0⟩] S256x4096.size (by rfl) y

/-! ## The body's triple -/

set_option maxHeartbeats 1000000 in
/-- The kernel body on whole staging memrefs, the inputs' at contents x0, x1, x2 and the output's at anything, runs to
    the continuation holding the inputs' as they were and the output's at out1_3 of the inputs'. -/
theorem sound_kernel1 (c : Dev nD) (E : Set ℕ) (i : grid1.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole)
    (x0 : Vec F S256x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__main_kernel i arg1 harg1 arg2 harg2 arg3 harg3 arg4 harg4) K := by
  simp only [cc1__main_kernel_eq_skeleton]; unfold cc1__main_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them (V); after the body at point t each
    input's buffer at its block and the output's at out1_3 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the program: its @main is five segments — a reshape of the argument, the column
  minimum/maximum kernel, the host reduction of the sixteen partial rows to one row each, the row kernel,
  and the reshape of the result. The contents of every unscoped buffer at each boundary are a fold from
  the launch memory: a host stretch applies its operations, a kernel region leaves its windows' arrays at
  what its write-backs leave and every other buffer as it found it. The run ends with every unscoped
  buffer at the last fold, from which the result and the unchanged argument are read.
-/
import proofs.«165057_j79379585565572_2_alg».proof.Proof.KI.Region0
import proofs.«165057_j79379585565572_2_alg».proof.Proof.KI.Region1
import proofs.«165057_j79379585565572_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the reshape of the argument): the first kernel's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the reductions of the partial rows): the second kernel's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch (the reshape of the result): the end. -/
abbrev W5 : Dev nD → Valuation τ sig (Elt F) := fun c => StableHlo.after hostOps2 (W4 m ρ c)

/-! ### The argument ends as launched: no host operation writes it, and each kernel only reads the array it is reshaped into -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first kernel over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## What the boundaries hold: each region's operands, and the result, as the operations' terms -/

/-- The first kernel reads the argument reshaped to a matrix. -/
theorem V1_main_v0 (c : Dev nD) :
    (V1 m ρ c main_v0 : S4096x4096.Idx → Elt F .f32) = shapeCast S4096x4096 (m ((c : Thread nD τ).loc main_arg0)) shapeCasts_S1x4096x4096_S4096x4096 := by
  show StableHlo.after hostOps0 (W0 m ρ c) (Proc.devRef .tc main_v0) = _
  after_results; rfl

/-- The second kernel's first operand is still that matrix: the first kernel only reads it and the host reductions do not write it. -/
theorem V3_main_v0 (c : Dev nD) : V3 m ρ c main_v0 = V1 m ρ c main_v0 :=
  calc W3 m ρ c (Proc.devRef .tc main_v0)
    _ = W2 m ρ c (Proc.devRef .tc main_v0) := StableHlo.after_of_writes_sub hostOps1 _ hostOps1_writes (r := main_v0) (by decide)
    _ = W1 m ρ c (Proc.devRef .tc main_v0) := (W2_arr m ρ c 0).trans (((dat0 (V1 m ρ) c).arrAt_in 0 rfl _).trans (A_eq0 (V1 m ρ) c 0))

/-- The partial rows the first kernel leaves. -/
theorem V2_main_v1_0 (c : Dev nD) : V2 m ρ c main_v1_0 = (dat0 (V1 m ρ) c).arrAt 1 cfg0.N := W2_arr m ρ c 1
theorem V2_main_v1_1 (c : Dev nD) : V2 m ρ c main_v1_1 = (dat0 (V1 m ρ) c).arrAt 2 cfg0.N := W2_arr m ρ c 2

/-- The second kernel's row of column minima: the host's minimum over the sixteen partial rows, as a one-row matrix. -/
theorem V3_main_v3 (c : Dev nD) :
    (V3 m ρ c main_v3 : S1x4096.Idx → Elt F .f32) = broadcastInDim S1x4096 ![1] bcast_S4096_S1x4096_1
      (Host.reduce FloatOps.minimumf (V2 m ρ c main_v1_0 : S16x4096.Idx → Elt F .f32) (constant (F := F) S_ .f32 0x7F800000#32) reducesTo_S16x4096_S4096_d0 h_S_) := by
  show StableHlo.after hostOps1 (W2 m ρ c) (Proc.devRef .tc main_v3) = _
  after_results

/-- The second kernel's row of column maxima. -/
theorem V3_main_v5 (c : Dev nD) :
    (V3 m ρ c main_v5 : S1x4096.Idx → Elt F .f32) = broadcastInDim S1x4096 ![1] bcast_S4096_S1x4096_1
      (Host.reduce FloatOps.maximumf (V2 m ρ c main_v1_1 : S16x4096.Idx → Elt F .f32) (constant (F := F) S_ .f32 0xFF800000#32) reducesTo_S16x4096_S4096_d0 h_S_) := by
  show StableHlo.after hostOps1 (W2 m ρ c) (Proc.devRef .tc main_v5) = _
  after_results

/-- The result: what the second kernel leaves, reshaped. -/
theorem W5_main_v7 (c : Dev nD) :
    (W5 m ρ c (Proc.devRef .tc main_v7) : S1x4096x4096.Idx → Elt F .f32) = shapeCast S1x4096x4096 ((dat1 (V3 m ρ) c).arrAt 3 cfg1.N : S4096x4096.Idx → Elt F .f32) shapeCasts_S4096x4096_S1x4096x4096 := by
  rw [← W4_arr m ρ c 3]
  show StableHlo.after hostOps2 (W4 m ρ c) (Proc.devRef .tc main_v7) = _
  after_results; rfl

/-- The run, read at the result and at the argument. -/
theorem run_result : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)) :=
  (θ_run defs _ _).mono (fun r h c => ⟨h c _ (mem_uc main_v7 (by decide)), (h c _ (mem_uc main_arg0 (by decide))).trans (W5_main_arg0 m ρ c)⟩) (run_all m ρ)

end Cert.KernelIdeal.Hand

end
-- ==== Proof.KI.Value0.lean ====
/-
  Region 0's value at the extended reals. With X the 4096 x 4096 input as the region finds it, the two result
  arrays (16 rows of 4096 columns each) end holding, at row r and column j, the infimum resp. the supremum of X's
  column j over the 2048 rows of half r / 8.

  The accumulator after a point is characterised by its universal property — a bound z is below it exactly when z
  is below X at every row read since the half began —, which the recursion over the points preserves: the first
  point of a half reads the block's column minimum, a later one takes the minimum with the block's.
-/
import proofs.«165057_j79379585565572_2_alg».proof.Proof.KI.Region0
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem hz0 : (![0, 0] : Fin 2 → Nat) = fun _ => 0 := funext fun a => by
  match a with
  | ⟨0, _⟩ => rfl
  | ⟨1, _⟩ => rfl

/-! ## What each case leaves, as the payload of its one whole-buffer store (any float instance) -/

section Generic

variable {F : FTy → Type} [FloatOps F]

theorem outA_1_eq (x0 : Vec F S256x4096 .f32) : outA_1 x0 = k0_pay2 x0 := by
  unfold outA_1; rw [View.canon_unit_zero hz0, View.ld_unit_zero (S := S256x4096) hz0]
theorem outA_2_eq (x0 : Vec F S256x4096 .f32) : outA_2 x0 = k0_pay3 x0 := by
  unfold outA_2; rw [View.canon_unit_zero hz0, View.ld_unit_zero (S := S256x4096) hz0]
theorem outB_1_eq (x0 : Vec F S256x4096 .f32) (xo : Vec F S8x4096 .f32) : outB_1 x0 xo = k0_pay4 x0 xo := by
  unfold outB_1; rw [View.canon_unit_zero hz0, View.ld_unit_zero (S := S256x4096) hz0, View.ld_unit_zero (S := S8x4096) hz0]
theorem outB_2_eq (x0 : Vec F S256x4096 .f32) (xo : Vec F S8x4096 .f32) : outB_2 x0 xo = k0_pay5 x0 xo := by
  unfold outB_2; rw [View.canon_unit_zero hz0, View.ld_unit_zero (S := S256x4096) hz0, View.ld_unit_zero (S := S8x4096) hz0]

end Generic

/-! ## The payloads at the extended reals, at an index -/

theorem ofBits_posInf_f32 : Ideal.ofBits .f32 0x7F800000#32 = ⊤ := by simp [Ideal.ofBits, Ideal.ieee]
theorem ofBits_negInf_f32 : Ideal.ofBits .f32 0xFF800000#32 = ⊥ := by simp [Ideal.ofBits, Ideal.ieee]

/-- The column index over reduced index `j` with row `p` inserted. -/
theorem lift_col0 (j : Fin 4096) (p : Fin 256) :
    (reduces_S256x4096_S4096.lift (ix1 j) p : S256x4096.Idx) = ix2 p j := by
  funext c
  apply Fin.ext
  match c with
  | ⟨0, _⟩ => rfl
  | ⟨1, _⟩ => rfl

/-- A bound is below the block's broadcast column minimum exactly when it is below every entry of the column. -/
theorem le_k0_pay2_iff (x : Vec Ideal S256x4096 .f32) (a : Fin 8) (j : Fin 4096) (z : EReal) :
    z ≤ k0_pay2 (F := Ideal) x (ix2 a j) ↔ ∀ p : Fin 256, z ≤ x (ix2 p j) := by
  have e : k0_pay2 (F := Ideal) x (ix2 a j)
      = (Finset.univ : Finset (Fin 256)).fold min (⊤ : EReal) (fun p => x (ix2 p j)) := by
    unfold k0_pay2 k0_pay1
    refine (broadcastTo_1b_ab_apply _ _ a j).trans ?_
    refine (congrFun (shapeCast_self _ _) _).trans ?_
    refine (shapeCast_a_1a_apply _ _ 0 j).trans ?_
    refine (multiReduction_minimumf_eq_fold _ _ _ _ _ _).trans ?_
    refine (reduces_S256x4096_S4096.fold_filter_drop_single _ _ _ _).trans ?_
    rw [shapeCast_self]
    show Finset.fold min (Ideal.ofBits .f32 0x7F800000#32) _ _ = _
    rw [ofBits_posInf_f32]
    refine Finset.fold_congr fun p _ => ?_
    exact congrArg x (lift_col0 j p)
  rw [e, Finset.le_fold_min]
  simp

/-- A bound is above the block's broadcast column maximum exactly when it is above every entry of the column. -/
theorem k0_pay3_le_iff (x : Vec Ideal S256x4096 .f32) (a : Fin 8) (j : Fin 4096) (z : EReal) :
    k0_pay3 (F := Ideal) x (ix2 a j) ≤ z ↔ ∀ p : Fin 256, x (ix2 p j) ≤ z := by
  have e : k0_pay3 (F := Ideal) x (ix2 a j)
      = (Finset.univ : Finset (Fin 256)).fold max (⊥ : EReal) (fun p => x (ix2 p j)) := by
    unfold k0_pay3 k0_pay1
    refine (broadcastTo_1b_ab_apply _ _ a j).trans ?_
    refine (congrFun (shapeCast_self _ _) _).trans ?_
    refine (shapeCast_a_1a_apply _ _ 0 j).trans ?_
    refine (multiReduction_maximumf_eq_fold _ _ _ _ _ _).trans ?_
    refine (reduces_S256x4096_S4096.fold_filter_drop_single _ _ _ _).trans ?_
    rw [shapeCast_self]
    show Finset.fold max (Ideal.ofBits .f32 0xFF800000#32) _ _ = _
    rw [ofBits_negInf_f32]
    refine Finset.fold_congr fun p _ => ?_
    exact congrArg x (lift_col0 j p)
  rw [e, Finset.fold_max_le]
  simp

/-- A later point's store: the minimum of what the buffer held and the block's column minimum, -/
theorem k0_pay4_apply (x : Vec Ideal S256x4096 .f32) (xo : Vec Ideal S8x4096 .f32) (i : S8x4096.Idx) :
    k0_pay4 (F := Ideal) x xo i = min (xo i) (k0_pay2 (F := Ideal) x i) := by
  unfold k0_pay4
  show min (shapeCast S8x4096 xo shapeCasts_S8x4096_S8x4096 i) _ = _
  rw [shapeCast_self]

/-- resp. the maximum of what it held and the block's column maximum. -/
theorem k0_pay5_apply (x : Vec Ideal S256x4096 .f32) (xo : Vec Ideal S8x4096 .f32) (i : S8x4096.Idx) :
    k0_pay5 (F := Ideal) x xo i = max (xo i) (k0_pay3 (F := Ideal) x i) := by
  unfold k0_pay5
  show max (shapeCast S8x4096 xo shapeCasts_S8x4096_S8x4096 i) _ = _
  rw [shapeCast_self]

/-! ## The input's block at a point: rows 256 t … 256 t + 255 of the array -/

section Blocks

variable (V : (c : Dev nD) → (b : Ref sig .tc) → Buf (Elt Ideal) ((c : Thread nD τ).loc b)) (c : Dev nD)
variable (X : S4096x4096.Idx → EReal)

/-- The input window's block index at point `t` is `(t, 0)`. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(p, j)` of the block at point `t` is entry `(256 t + p, j)` of the array `X` the region finds. -/
theorem iblk0_apply (hX : X = V c main_v0) (t : Fin cfg0.N) (x : Vec Ideal S256x4096 .f32) (hx : x = iblk0 V c 0 t)
    (p : Fin 256) (j : Fin 4096) (ρ : Fin 4096) (hρ : ρ.val = 256 * t.val + p.val) :
    x (ix2 p j) = X (ix2 ρ j) := by
  subst hx hX
  obtain ⟨e0, e1⟩ := idx0_0 t
  unfold iblk0
  rw [View.read_apply]
  show V c main_v0 _ = V c main_v0 _
  congr 1
  funext a
  apply Fin.ext
  match a with
  | ⟨0, _⟩ => show win0_0.index t (0 : Fin 2) * 256 + 1 * p.val = ρ.val; rw [e0, hρ]; omega
  | ⟨1, _⟩ => show win0_0.index t (1 : Fin 2) * 4096 + 1 * j.val = j.val; rw [e1]; omega

/-- A bound is below every entry of column `j` of the block at point `t` exactly when it is below `X`'s column
    `j` on the block's rows. -/
theorem le_iblk0_iff (hX : X = V c main_v0) (t : Fin cfg0.N) (x : Vec Ideal S256x4096 .f32) (hx : x = iblk0 V c 0 t)
    (j : Fin 4096) (z : EReal) :
    (∀ p : Fin 256, z ≤ x (ix2 p j))
      ↔ ∀ ρ : Fin 4096, 256 * t.val ≤ ρ.val → ρ.val < 256 * (t.val + 1) → z ≤ X (ix2 ρ j) := by
  constructor
  · intro h ρ h1 h2
    have := h ⟨ρ.val - 256 * t.val, by omega⟩
    rwa [iblk0_apply V c X hX t x hx _ j ρ (by dsimp only; omega)] at this
  · intro h p
    have hN : t.val < 16 := lt_of_lt_of_eq t.isLt (show cfg0.N = 16 from N_0)
    have hp := p.isLt
    rw [iblk0_apply V c X hX t x hx p j ⟨256 * t.val + p.val, by omega⟩ rfl]
    exact h _ (by dsimp only; omega) (by dsimp only; omega)

theorem iblk0_le_iff (hX : X = V c main_v0) (t : Fin cfg0.N) (x : Vec Ideal S256x4096 .f32) (hx : x = iblk0 V c 0 t)
    (j : Fin 4096) (z : EReal) :
    (∀ p : Fin 256, x (ix2 p j) ≤ z)
      ↔ ∀ ρ : Fin 4096, 256 * t.val ≤ ρ.val → ρ.val < 256 * (t.val + 1) → X (ix2 ρ j) ≤ z := by
  constructor
  · intro h ρ h1 h2
    have := h ⟨ρ.val - 256 * t.val, by omega⟩
    rwa [iblk0_apply V c X hX t x hx _ j ρ (by dsimp only; omega)] at this
  · intro h p
    have hN : t.val < 16 := lt_of_lt_of_eq t.isLt (show cfg0.N = 16 from N_0)
    have hp := p.isLt
    rw [iblk0_apply V c X hX t x hx p j ⟨256 * t.val + p.val, by omega⟩ rfl]
    exact h _ (by dsimp only; omega) (by dsimp only; omega)

/-! ## The accumulators, by their universal property -/

/-- After point `n` the minima accumulator is the greatest lower bound of column `j` of `X` over the rows read since
    the half began: rows `256 (n - n mod 8)` up to `256 (n + 1)`. -/
theorem le_accMin_iff (hX : X = V c main_v0) : ∀ (n : ℕ) (h : n < cfg0.N) (a : Fin 8) (j : Fin 4096) (z : EReal),
    z ≤ accMin V c n h (ix2 a j)
      ↔ ∀ ρ : Fin 4096, 256 * (n - n % 8) ≤ ρ.val → ρ.val < 256 * (n + 1) → z ≤ X (ix2 ρ j)
  | 0, h, a, j, z => by
    rw [accMin_A V c ⟨0, h⟩ rfl, outA_1_eq, le_k0_pay2_iff, le_iblk0_iff V c X hX ⟨0, h⟩ (iblk0 V c 0 ⟨0, h⟩) rfl]
  | n + 1, h, a, j, z => by
    by_cases h0 : (n + 1) % 8 = 0
    · rw [accMin_A V c ⟨n + 1, h⟩ h0, outA_1_eq, le_k0_pay2_iff, le_iblk0_iff V c X hX ⟨n + 1, h⟩ (iblk0 V c 0 ⟨n + 1, h⟩) rfl]
      refine forall_congr' fun ρ => ?_
      dsimp only
      rw [h0, Nat.sub_zero]
    · rw [accMin_B V c ⟨n + 1, h⟩ h0, outB_1_eq, k0_pay4_apply, le_min_iff, le_k0_pay2_iff,
        le_iblk0_iff V c X hX ⟨n + 1, h⟩ (iblk0 V c 0 ⟨n + 1, h⟩) rfl]
      have ih := le_accMin_iff hX n (Nat.lt_of_succ_lt h) a j z
      show z ≤ accMin V c n _ (ix2 a j) ∧ _ ↔ _
      rw [ih]
      dsimp only
      constructor
      · rintro ⟨h1, h2⟩ ρ hl hu
        by_cases hm : ρ.val < 256 * (n + 1)
        · exact h1 ρ (by omega) hm
        · exact h2 ρ (by omega) hu
      · intro h3
        exact ⟨fun ρ hl hu => h3 ρ (by omega) (by omega), fun ρ hl hu => h3 ρ (by omega) hu⟩

/-- After point `n` the maxima accumulator is the least upper bound of column `j` of `X` over the same rows. -/
theorem accMax_le_iff (hX : X = V c main_v0) : ∀ (n : ℕ) (h : n < cfg0.N) (a : Fin 8) (j : Fin 4096) (z : EReal),
    accMax V c n h (ix2 a j) ≤ z
      ↔ ∀ ρ : Fin 4096, 256 * (n - n % 8) ≤ ρ.val → ρ.val < 256 * (n + 1) → X (ix2 ρ j) ≤ z
  | 0, h, a, j, z => by
    rw [accMax_A V c ⟨0, h⟩ rfl, outA_2_eq, k0_pay3_le_iff, iblk0_le_iff V c X hX ⟨0, h⟩ (iblk0 V c 0 ⟨0, h⟩) rfl]
  | n + 1, h, a, j, z => by
    by_cases h0 : (n + 1) % 8 = 0
    · rw [accMax_A V c ⟨n + 1, h⟩ h0, outA_2_eq, k0_pay3_le_iff, iblk0_le_iff V c X hX ⟨n + 1, h⟩ (iblk0 V c 0 ⟨n + 1, h⟩) rfl]
      refine forall_congr' fun ρ => ?_
      dsimp only
      rw [h0, Nat.sub_zero]
    · rw [accMax_B V c ⟨n + 1, h⟩ h0, outB_2_eq, k0_pay5_apply, max_le_iff, k0_pay3_le_iff,
        iblk0_le_iff V c X hX ⟨n + 1, h⟩ (iblk0 V c 0 ⟨n + 1, h⟩) rfl]
      have ih := accMax_le_iff hX n (Nat.lt_of_succ_lt h) a j z
      show accMax V c n _ (ix2 a j) ≤ z ∧ _ ↔ _
      rw [ih]
      dsimp only
      constructor
      · rintro ⟨h1, h2⟩ ρ hl hu
        by_cases hm : ρ.val < 256 * (n + 1)
        · exact h1 ρ (by omega) hm
        · exact h2 ρ (by omega) hu
      · intro h3
        exact ⟨fun ρ hl hu => h3 ρ (by omega) (by omega), fun ρ hl hu => h3 ρ (by omega) hu⟩

end Blocks

/-! ## The two result arrays after the region -/

section Final

variable (V : (c : Dev nD) → (b : Ref sig .tc) → Buf (Elt Ideal) ((c : Thread nD τ).loc b)) (c : Dev nD)
variable (X : S4096x4096.Idx → EReal)

/-- Row `r`, column `j` of the minima array: the infimum of `X`'s column `j` over the 2048 rows of half `r / 8`. -/
def colInf (i : S16x4096.Idx) : EReal :=
  Finset.univ.inf fun k : Fin 2048 => X (ix2 (⟨2048 * ((i 0).val / 8) + k.val, by have := idx2_lt0 i; have := k.isLt; omega⟩ : Fin 4096) (i 1))

/-- Row `r`, column `j` of the maxima array: the supremum of `X`'s column `j` over the 2048 rows of half `r / 8`. -/
def colSup (i : S16x4096.Idx) : EReal :=
  Finset.univ.sup fun k : Fin 2048 => X (ix2 (⟨2048 * ((i 0).val / 8) + k.val, by have := idx2_lt0 i; have := k.isLt; omega⟩ : Fin 4096) (i 1))

/-- The output windows' block index at point `t` is `(t / 8, 0)`. -/
theorem idx0_1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
theorem idx0_2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What the last point of a half writes back is that half's block of `colInf`. -/
theorem flushed0_1_eq (hX : X = V c main_v0) (t : Fin cfg0.N) (hf : (cfg0.win 1).flush t = true) :
    (dat0 V c).flushed 1 t = ((cfg0.win 1).blk t).view.read (Elt Ideal) (colInf X) := by
  have h7 : t.val % 8 = 7 := (flush0_1 t).mp hf
  have hN : t.val < 16 := lt_of_lt_of_eq t.isLt (show cfg0.N = 16 from N_0)
  obtain ⟨e0, e1⟩ := idx0_1 t
  show (cfg0.win 1).cut (grid0.coords t) ((dat0 V c).after 1 t) = _
  rw [after0_1]
  funext y
  rw [View.read_apply]
  obtain ⟨a, j, rfl⟩ : ∃ (a : Fin 8) (j : Fin 4096), y = ix2 a j := ⟨y 0, y 1, eq_ix2 y⟩
  have ha := a.isLt
  have hemb : ((cfg0.win 1).blk t).view.emb (ix2 a j) = (ix2 (⟨8 * (t.val / 8) + a.val, by omega⟩ : Fin 16) j : S16x4096.Idx) := by
    funext ax
    apply Fin.ext
    match ax with
    | ⟨0, _⟩ => show win0_1.index t (0 : Fin 2) * 8 + 1 * a.val = 8 * (t.val / 8) + a.val; rw [e0]; omega
    | ⟨1, _⟩ => show win0_1.index t (1 : Fin 2) * 4096 + 1 * j.val = j.val; rw [e1]; omega
  show accMin V c t.val t.isLt (ix2 a j) = colInf X (((cfg0.win 1).blk t).view.emb (ix2 a j))
  rw [hemb]
  refine eq_of_forall_le_iff fun z => ?_
  rw [le_accMin_iff V c X hX]
  unfold colInf
  rw [Finset.le_inf_iff]
  constructor
  · intro h k _
    exact h _ (by dsimp only; omega) (by dsimp only; have := k.isLt; omega)
  · intro h ρ hl hu
    have := h ⟨ρ.val - 2048 * (t.val / 8), by omega⟩ (Finset.mem_univ _)
    have e : (⟨2048 * ((⟨8 * (t.val / 8) + a.val, by omega⟩ : Fin 16).val / 8) + (ρ.val - 2048 * (t.val / 8)), by dsimp only; omega⟩ : Fin 4096) = ρ :=
      Fin.ext (by dsimp only; omega)
    exact e ▸ this

/-- What the last point of a half writes back is that half's block of `colSup`. -/
theorem flushed0_2_eq (hX : X = V c main_v0) (t : Fin cfg0.N) (hf : (cfg0.win 2).flush t = true) :
    (dat0 V c).flushed 2 t = ((cfg0.win 2).blk t).view.read (Elt Ideal) (colSup X) := by
  have h7 : t.val % 8 = 7 := (flush0_2 t).mp hf
  have hN : t.val < 16 := lt_of_lt_of_eq t.isLt (show cfg0.N = 16 from N_0)
  obtain ⟨e0, e1⟩ := idx0_2 t
  show (cfg0.win 2).cut (grid0.coords t) ((dat0 V c).after 2 t) = _
  rw [after0_2]
  funext y
  rw [View.read_apply]
  obtain ⟨a, j, rfl⟩ : ∃ (a : Fin 8) (j : Fin 4096), y = ix2 a j := ⟨y 0, y 1, eq_ix2 y⟩
  have ha := a.isLt
  have hemb : ((cfg0.win 2).blk t).view.emb (ix2 a j) = (ix2 (⟨8 * (t.val / 8) + a.val, by omega⟩ : Fin 16) j : S16x4096.Idx) := by
    funext ax
    apply Fin.ext
    match ax with
    | ⟨0, _⟩ => show win0_2.index t (0 : Fin 2) * 8 + 1 * a.val = 8 * (t.val / 8) + a.val; rw [e0]; omega
    | ⟨1, _⟩ => show win0_2.index t (1 : Fin 2) * 4096 + 1 * j.val = j.val; rw [e1]; omega
  show accMax V c t.val t.isLt (ix2 a j) = colSup X (((cfg0.win 2).blk t).view.emb (ix2 a j))
  rw [hemb]
  refine eq_of_forall_ge_iff fun z => ?_
  rw [accMax_le_iff V c X hX]
  unfold colSup
  rw [Finset.sup_le_iff]
  constructor
  · intro h k _
    exact h _ (by dsimp only; omega) (by dsimp only; have := k.isLt; omega)
  · intro h ρ hl hu
    have := h ⟨ρ.val - 2048 * (t.val / 8), by omega⟩ (Finset.mem_univ _)
    have e : (⟨2048 * ((⟨8 * (t.val / 8) + a.val, by omega⟩ : Fin 16).val / 8) + (ρ.val - 2048 * (t.val / 8)), by dsimp only; omega⟩ : Fin 4096) = ρ :=
      Fin.ext (by dsimp only; omega)
    exact e ▸ this

/-- An index of a result array is in point `t`'s block iff each coordinate is in the block's range on its axis. -/
theorem mem_blk0_1 (t : Fin cfg0.N) (i : S16x4096.Idx) :
    i ∈ ((cfg0.win 1).blk t).view.set ↔ ∀ a : Fin 2, win0_1.index t a * S8x4096.size a ≤ (i a).val ∧ (i a).val < win0_1.index t a * S8x4096.size a + S8x4096.size a := by
  show i ∈ ((View.whole main_v1_0).slice (win0_1.rect t)).set ↔ _
  rw [View.set_slice_whole, Rect.mem_set_unit]
  exact Iff.rfl
theorem mem_blk0_2 (t : Fin cfg0.N) (i : S16x4096.Idx) :
    i ∈ ((cfg0.win 2).blk t).view.set ↔ ∀ a : Fin 2, win0_2.index t a * S8x4096.size a ≤ (i a).val ∧ (i a).val < win0_2.index t a * S8x4096.size a + S8x4096.size a := by
  show i ∈ ((View.whole main_v1_1).slice (win0_2.rect t)).set ↔ _
  rw [View.set_slice_whole, Rect.mem_set_unit]
  exact Iff.rfl

/-- Every row of a result array lies in the block written back at the last point of its half. -/
theorem cover0_1 (i : S16x4096.Idx) : ∃ t : Fin cfg0.N, (cfg0.win 1).flush t = true ∧ i ∈ ((cfg0.win 1).blk t).view.set := by
  have h0 := idx2_lt0 i
  have h1 := idx2_lt1 i
  refine ⟨⟨8 * ((i 0).val / 8) + 7, by rw [show cfg0.N = 16 from N_0]; omega⟩, (flush0_1 _).mpr (by dsimp only; omega), ?_⟩
  rw [mem_blk0_1]
  obtain ⟨e0, e1⟩ := idx0_1 ⟨8 * ((i 0).val / 8) + 7, by rw [show cfg0.N = 16 from N_0]; omega⟩
  intro a
  match a with
  | ⟨0, _⟩ => show win0_1.index _ (0 : Fin 2) * 8 ≤ (i 0).val ∧ (i 0).val < win0_1.index _ (0 : Fin 2) * 8 + 8; rw [e0]; dsimp only; omega
  | ⟨1, _⟩ => show win0_1.index _ (1 : Fin 2) * 4096 ≤ (i 1).val ∧ (i 1).val < win0_1.index _ (1 : Fin 2) * 4096 + 4096; rw [e1]; omega
theorem cover0_2 (i : S16x4096.Idx) : ∃ t : Fin cfg0.N, (cfg0.win 2).flush t = true ∧ i ∈ ((cfg0.win 2).blk t).view.set := by
  have h0 := idx2_lt0 i
  have h1 := idx2_lt1 i
  refine ⟨⟨8 * ((i 0).val / 8) + 7, by rw [show cfg0.N = 16 from N_0]; omega⟩, (flush0_2 _).mpr (by dsimp only; omega), ?_⟩
  rw [mem_blk0_2]
  obtain ⟨e0, e1⟩ := idx0_2 ⟨8 * ((i 0).val / 8) + 7, by rw [show cfg0.N = 16 from N_0]; omega⟩
  intro a
  match a with
  | ⟨0, _⟩ => show win0_2.index _ (0 : Fin 2) * 8 ≤ (i 0).val ∧ (i 0).val < win0_2.index _ (0 : Fin 2) * 8 + 8; rw [e0]; dsimp only; omega
  | ⟨1, _⟩ => show win0_2.index _ (1 : Fin 2) * 4096 ≤ (i 1).val ∧ (i 1).val < win0_2.index _ (1 : Fin 2) * 4096 + 4096; rw [e1]; omega

/-- THE MINIMA ARRAY after the region: `colInf X`, for `X` the input array as the region finds it. -/
theorem final0_1 (hX : X = V c main_v0) : (dat0 V c).arrAt 1 cfg0.N = colInf X :=
  (dat0 V c).arrAt_eq_of_cover 1 (colInf X) (flushed0_1_eq V c X hX) cover0_1

/-- THE MAXIMA ARRAY after the region: `colSup X`. -/
theorem final0_2 (hX : X = V c main_v0) : (dat0 V c).arrAt 2 cfg0.N = colSup X :=
  (dat0 V c).arrAt_eq_of_cover 2 (colSup X) (flushed0_2_eq V c X hX) cover0_2

/-- The same at row `r` and column `j`. -/
theorem final0_1_apply (hX : X = V c main_v0) (r : Fin 16) (j : Fin 4096) :
    (dat0 V c).arrAt 1 cfg0.N (ix2 r j)
      = Finset.univ.inf fun k : Fin 2048 => X (ix2 (⟨2048 * (r.val / 8) + k.val, by have := r.isLt; have := k.isLt; omega⟩ : Fin 4096) j) := by
  rw [final0_1 V c X hX]; rfl
theorem final0_2_apply (hX : X = V c main_v0) (r : Fin 16) (j : Fin 4096) :
    (dat0 V c).arrAt 2 cfg0.N (ix2 r j)
      = Finset.univ.sup fun k : Fin 2048 => X (ix2 (⟨2048 * (r.val / 8) + k.val, by have := r.isLt; have := k.isLt; omega⟩ : Fin 4096) j) := by
  rw [final0_2 V c X hX]; rfl

end Final

end Cert.KernelIdeal.Hand

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.KerRow.lean ====
/- The row arithmetic of the normalising kernel, on extended reals, with no program in sight: for one row x of 4096
   entries and the column minima mn and maxima mx, the entry the kernel leaves at column j. -/
import Idealize.ShloMosaic.PureOps.Ideal
import Idealize.ShloMosaic.PureOps.Ideal.Laws

noncomputable section

open scoped BigOperators

namespace Cert.KerRow

open Idealize.ShloMosaic

/-- The sign the kernel computes from a centred entry d: where |d| > 0 the unit carrying d's sign (−1 below zero, else 1),
    elsewhere d itself (which is then zero). -/
def kerSgn (d : EReal) : EReal :=
  Scalar.select (Ideal.cmp .ogt (max d (-d)) (Ideal.ofBits .f32 0x00000000#32))
    (Scalar.select (Ideal.cmp .olt d (Ideal.ofBits .f32 0x00000000#32)) (Ideal.ofBits .f32 0xBF800000#32)
      (Ideal.ofBits .f32 0x3F800000#32)) d

/-- It is the sign function of the extended reals, at every d. -/
theorem kerSgn_eq_sign (d : EReal) : kerSgn d = Ideal.sign d := Ideal.jnp_sign_eq_sign_f32 (d : Ideal .f32)

/-- The column range mx − mn, with 1 where it is zero. -/
def kerRng (mn mx : Fin 4096 → EReal) (j : Fin 4096) : EReal :=
  Scalar.select (Ideal.cmp .oeq (mx j - mn j) (Ideal.ofBits .f32 0x00000000#32)) (Ideal.ofBits .f32 0x3F800000#32) (mx j - mn j)

/-- The row mapped into the unit range: (x − mn) times the reciprocal of the range. -/
def kerArr (x mn mx : Fin 4096 → EReal) (j : Fin 4096) : EReal :=
  (x j - mn j) * Ideal.div (Ideal.ofBits .f32 0x3F800000#32) (kerRng mn mx j)

/-- The root term of a row a at column j: the square root of
    max (cA·a_j·a_j − cB·a_j·S + cC·SS, 0), S the row's sum and SS its sum of squares. -/
def kerRoot (a : Fin 4096 → EReal) (j : Fin 4096) : EReal :=
  Ideal.sqrt (max (Ideal.ofBits .f32 0x3F800801#32 * a j * a j - Ideal.ofBits .f32 0x3A000801#32 * a j * (∑ k : Fin 4096, a k)
      + Ideal.ofBits .f32 0x39800801#32 * (∑ k : Fin 4096, a k * a k)) (Ideal.ofBits .f32 0x00000000#32))

/-- The entry centred at the row's mean: a_j − S·2⁻¹². -/
def kerCen (a : Fin 4096 → EReal) (j : Fin 4096) : EReal :=
  a j - (∑ k : Fin 4096, a k) * Ideal.ofBits .f32 0x39800000#32

/-- One damping round: a_j · (1 − 0.1·root_j·sgn(centred_j)). -/
def kerStep (a : Fin 4096 → EReal) (j : Fin 4096) : EReal :=
  a j * (Ideal.ofBits .f32 0x3F800000#32 - Ideal.ofBits .f32 0x3DCCCCCD#32 * kerRoot a j * kerSgn (kerCen a j))

/-- The kernel's row: three damping rounds of the normalised row, 0.005 added after the first, mapped back by the
    range and the minima. -/
def kerRowOut (x mn mx : Fin 4096 → EReal) (j : Fin 4096) : EReal :=
  kerStep (kerStep (fun k => kerStep (kerArr x mn mx) k + Ideal.ofBits .f32 0x3BA3D70A#32)) j * kerRng mn mx j + mn j

end Cert.KerRow

end
-- ==== Proof.KI.PayRow.lean ====
/- The value the row-normalising body stores, read entry by entry on extended reals: at (p, q) of the block it is the
   kernel's row function of the block's row p and of the two one-row inputs, at column q. -/
import proofs.«165057_j79379585565572_2_alg».proof.Proof.Gen.KernelIdeal.Skeleton
import proofs.«165057_j79379585565572_2_alg».proof.Proof.LibColumn
import proofs.«165057_j79379585565572_2_alg».proof.Proof.KerRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.KerRow Cert.Lib
open scoped BigOperators

/-! ## The three non-pointwise shapes of the body, read at an index of the block -/

/-- A one-row array broadcast down the rows reads, at (p, q), the row's entry q. -/
theorem broadcastTo_1b_ab_apply {α : Type} {a b : ℕ} (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The row of minima (or ranges) broadcast over the 256 rows of the block. -/
theorem bcRow (v : FVec Ideal S1x4096 .f32) (p : Fin 256) (q : Fin 4096) :
    broadcastTo S256x4096 v broadcasts_S1x4096_S256x4096 (ix2 p q) = v (ix2 (0 : Fin 1) q) :=
  broadcastTo_1b_ab_apply v broadcasts_S1x4096_S256x4096 p q

/-- A column of per-row values broadcast over the 4096 columns. -/
theorem bcCol (v : FVec Ideal S256x1 .f32) (p : Fin 256) (q : Fin 4096) :
    broadcastTo S256x4096 v broadcasts_S256x1_S256x4096 (ix2 p q) = v (ix2 p (0 : Fin 1)) :=
  broadcastTo_a1_ab_apply v broadcasts_S256x1_S256x4096 p q

/-- The lane sum kept as a column: at row p, the sum of the block's row p. -/
theorem laneSum (z : FVec Ideal S256x4096 .f32) (p : Fin 256) (u : Fin 1) :
    shapeCast S256x1 (multiReduction .add [1] S256 z 0x00000000#32 reduces_S256x4096_S256 (.inl rfl) rfl) shapeCasts_S256_S256x1 (ix2 p u)
      = ∑ k : Fin 4096, z (ix2 p k) :=
  (shapeCast_a_a1_apply _ shapeCasts_S256_S256x1 p u).trans (multiReduction_add_row z reduces_S256x4096_S256 (.inl rfl) rfl p)

/-! ## One damping round on a block, as the body spells it, and its reading row by row -/

/-- The root term of a block. -/
def rootV (a : FVec Ideal S256x4096 .f32) : FVec Ideal S256x4096 .f32 :=
  sqrt (maximumf (addf (subf (mulf (mulf (broadcast S256x4096 (Scalar.ofBits .f32 0x3F800801#32)) a) a)
      (mulf (mulf (broadcast S256x4096 (Scalar.ofBits .f32 0x3A000801#32)) a)
        (broadcastTo S256x4096 (shapeCast S256x1 (multiReduction .add [1] S256 a 0x00000000#32 reduces_S256x4096_S256 (.inl rfl) rfl) shapeCasts_S256_S256x1) broadcasts_S256x1_S256x4096)))
      (broadcastTo S256x4096 (mulf (broadcast S256x1 (Scalar.ofBits .f32 0x39800801#32))
        (shapeCast S256x1 (multiReduction .add [1] S256 (mulf a a) 0x00000000#32 reduces_S256x4096_S256 (.inl rfl) rfl) shapeCasts_S256_S256x1)) broadcasts_S256x1_S256x4096))
    (broadcast S256x4096 (Scalar.ofBits .f32 0x00000000#32)))

/-- The block centred at its rows' means. -/
def cenV (a : FVec Ideal S256x4096 .f32) : FVec Ideal S256x4096 .f32 :=
  subf a (broadcastTo S256x4096 (mulf (shapeCast S256x1 (multiReduction .add [1] S256 a 0x00000000#32 reduces_S256x4096_S256 (.inl rfl) rfl) shapeCasts_S256_S256x1)
    (broadcast S256x1 (Scalar.ofBits .f32 0x39800000#32))) broadcasts_S256x1_S256x4096)

/-- The sign of a block, as the body computes it. -/
def sgnV (d : FVec Ideal S256x4096 .f32) : FVec Ideal S256x4096 .f32 :=
  select (cmpf .ogt (absf d) (broadcast S256x4096 (Scalar.ofBits .f32 0x00000000#32)))
    (select (cmpf .olt d (constant S256x4096 .f32 0x00000000#32)) (constant S256x4096 .f32 0xBF800000#32) (constant S256x4096 .f32 0x3F800000#32)) d

/-- One damping round of a block. -/
def stepV (a : FVec Ideal S256x4096 .f32) : FVec Ideal S256x4096 .f32 :=
  mulf a (subf (broadcast S256x4096 (Scalar.ofBits .f32 0x3F800000#32))
    (mulf (mulf (broadcast S256x4096 (Scalar.ofBits .f32 0x3DCCCCCD#32)) (rootV a)) (sgnV (cenV a))))

theorem rootV_apply (a : FVec Ideal S256x4096 .f32) (p : Fin 256) (q : Fin 4096) :
    rootV a (ix2 p q) = kerRoot (fun k => a (ix2 p k)) q := by
  unfold rootV kerRoot
  show Ideal.sqrt (max (Ideal.ofBits .f32 0x3F800801#32 * a (ix2 p q) * a (ix2 p q)
      - Ideal.ofBits .f32 0x3A000801#32 * a (ix2 p q) * broadcastTo S256x4096 (shapeCast S256x1 (multiReduction .add [1] S256 a 0x00000000#32 reduces_S256x4096_S256 (.inl rfl) rfl) shapeCasts_S256_S256x1) broadcasts_S256x1_S256x4096 (ix2 p q)
      + broadcastTo S256x4096 (mulf (broadcast S256x1 (Scalar.ofBits .f32 0x39800801#32))
          (shapeCast S256x1 (multiReduction .add [1] S256 (mulf a a) 0x00000000#32 reduces_S256x4096_S256 (.inl rfl) rfl) shapeCasts_S256_S256x1)) broadcasts_S256x1_S256x4096 (ix2 p q))
      (Ideal.ofBits .f32 0x00000000#32)) = _
  rw [bcCol, bcCol, laneSum]
  show Ideal.sqrt (max (_ - _ + Ideal.ofBits .f32 0x39800801#32 * shapeCast S256x1 (multiReduction .add [1] S256 (mulf a a) 0x00000000#32 reduces_S256x4096_S256 (.inl rfl) rfl) shapeCasts_S256_S256x1 (ix2 p (0 : Fin 1))) _) = _
  rw [laneSum]
  rfl

theorem cenV_apply (a : FVec Ideal S256x4096 .f32) (p : Fin 256) (q : Fin 4096) :
    cenV a (ix2 p q) = kerCen (fun k => a (ix2 p k)) q := by
  unfold cenV kerCen
  show a (ix2 p q) - broadcastTo S256x4096 (mulf (shapeCast S256x1 (multiReduction .add [1] S256 a 0x00000000#32 reduces_S256x4096_S256 (.inl rfl) rfl) shapeCasts_S256_S256x1)
    (broadcast S256x1 (Scalar.ofBits .f32 0x39800000#32))) broadcasts_S256x1_S256x4096 (ix2 p q) = _
  rw [bcCol]
  show _ - shapeCast S256x1 (multiReduction .add [1] S256 a 0x00000000#32 reduces_S256x4096_S256 (.inl rfl) rfl) shapeCasts_S256_S256x1 (ix2 p (0 : Fin 1)) * Ideal.ofBits .f32 0x39800000#32 = _
  rw [laneSum]

theorem sgnV_apply (d : FVec Ideal S256x4096 .f32) (i : S256x4096.Idx) : sgnV d i = kerSgn (d i) := rfl

theorem stepV_apply (a : FVec Ideal S256x4096 .f32) (p : Fin 256) (q : Fin 4096) :
    stepV a (ix2 p q) = kerStep (fun k => a (ix2 p k)) q := by
  unfold stepV kerStep
  show a (ix2 p q) * (Ideal.ofBits .f32 0x3F800000#32 - Ideal.ofBits .f32 0x3DCCCCCD#32 * rootV a (ix2 p q) * kerSgn (cenV a (ix2 p q))) = _
  rw [rootV_apply, cenV_apply]

/-! ## The payloads at an index -/

theorem pay2_apply (v2 : Vec Ideal S1x4096 .f32) (q : Fin 4096) : k1_pay2 v2 (ix2 (0 : Fin 1) q) = v2 (ix2 (0 : Fin 1) q) := by
  unfold k1_pay2
  simp only [shapeCast_self]

theorem pay3_apply (v2 v4 : Vec Ideal S1x4096 .f32) (q : Fin 4096) :
    k1_pay3 v2 v4 (ix2 (0 : Fin 1) q) = kerRng (fun k => v2 (ix2 (0 : Fin 1) k)) (fun k => v4 (ix2 (0 : Fin 1) k)) q := by
  unfold k1_pay3 k1_pay2 kerRng
  simp only [shapeCast_self]
  rfl

theorem pay4_apply (v0 : Vec Ideal S256x4096 .f32) (v2 v4 : Vec Ideal S1x4096 .f32) (p : Fin 256) (q : Fin 4096) :
    k1_pay4 v0 v2 v4 (ix2 p q) = kerArr (fun k => v0 (ix2 p k)) (fun k => v2 (ix2 (0 : Fin 1) k)) (fun k => v4 (ix2 (0 : Fin 1) k)) q := by
  unfold k1_pay4 kerArr
  simp only [shapeCast_self]
  show (v0 (ix2 p q) - broadcastTo S256x4096 (k1_pay2 v2) broadcasts_S1x4096_S256x4096 (ix2 p q))
      * broadcastTo S256x4096 (divf (broadcast S1x4096 (FloatOps.ofBits .f32 0x3F800000#32)) (k1_pay3 v2 v4)) broadcasts_S1x4096_S256x4096 (ix2 p q) = _
  rw [bcRow, bcRow, pay2_apply]
  show _ * Ideal.div _ (k1_pay3 v2 v4 (ix2 (0 : Fin 1) q)) = _
  rw [pay3_apply]
  rfl

/-- The stored value is three damping rounds of the normalised block (0.005 added after the first), times the ranges,
    plus the minima: the payloads' chain folded into the round's one spelling. -/
theorem pay_chain (v0 : Vec Ideal S256x4096 .f32) (v2 v4 : Vec Ideal S1x4096 .f32) :
    k1_pay1
      (k1_pay12 (k1_pay3 v2 v4)
        (k1_pay8 (k1_pay4 v0 v2 v4) (k1_pay6 v0 v2 v4) (k1_pay7 v0 v2 v4))
        (k1_pay10 (k1_pay4 v0 v2 v4) (k1_pay6 v0 v2 v4) (k1_pay7 v0 v2 v4))
        (k1_pay11 (k1_pay4 v0 v2 v4) (k1_pay6 v0 v2 v4) (k1_pay7 v0 v2 v4)))
      (k1_pay13 (k1_pay2 v2))
    = addf (mulf (stepV (stepV (addf (stepV (k1_pay4 v0 v2 v4)) (broadcast S256x4096 (Scalar.ofBits .f32 0x3BA3D70A#32)))))
          (broadcastTo S256x4096 (k1_pay3 v2 v4) broadcasts_S1x4096_S256x4096))
        (broadcastTo S256x4096 (k1_pay2 v2) broadcasts_S1x4096_S256x4096) := rfl

/-- THE STORED VALUE AT (p, q): the kernel's row function of the block's row p and the two one-row inputs, at column q. -/
theorem pay_row (v0 : Vec Ideal S256x4096 .f32) (v2 v4 : Vec Ideal S1x4096 .f32) (p : Fin 256) (q : Fin 4096) :
    k1_pay1
      (k1_pay12 (k1_pay3 v2 v4)
        (k1_pay8 (k1_pay4 v0 v2 v4) (k1_pay6 v0 v2 v4) (k1_pay7 v0 v2 v4))
        (k1_pay10 (k1_pay4 v0 v2 v4) (k1_pay6 v0 v2 v4) (k1_pay7 v0 v2 v4))
        (k1_pay11 (k1_pay4 v0 v2 v4) (k1_pay6 v0 v2 v4) (k1_pay7 v0 v2 v4)))
      (k1_pay13 (k1_pay2 v2)) (ix2 p q)
    = kerRowOut (fun k => v0 (ix2 p k)) (fun k => v2 (ix2 (0 : Fin 1) k)) (fun k => v4 (ix2 (0 : Fin 1) k)) q := by
  rw [pay_chain]
  show stepV (stepV (addf (stepV (k1_pay4 v0 v2 v4)) (broadcast S256x4096 (Scalar.ofBits .f32 0x3BA3D70A#32)))) (ix2 p q)
      * broadcastTo S256x4096 (k1_pay3 v2 v4) broadcasts_S1x4096_S256x4096 (ix2 p q)
      + broadcastTo S256x4096 (k1_pay2 v2) broadcasts_S1x4096_S256x4096 (ix2 p q) = _
  rw [stepV_apply, bcRow, bcRow, pay3_apply, pay2_apply]
  have h2 : (fun k => stepV (addf (stepV (k1_pay4 v0 v2 v4)) (broadcast S256x4096 (Scalar.ofBits .f32 0x3BA3D70A#32))) (ix2 p k))
      = kerStep (fun k => kerStep (kerArr (fun k => v0 (ix2 p k)) (fun k => v2 (ix2 (0 : Fin 1) k)) (fun k => v4 (ix2 (0 : Fin 1) k))) k + Ideal.ofBits .f32 0x3BA3D70A#32) := by
    funext k
    rw [stepV_apply]
    refine congrArg (fun f => kerStep f k) (funext fun k' => ?_)
    show stepV (k1_pay4 v0 v2 v4) (ix2 p k') + Ideal.ofBits .f32 0x3BA3D70A#32 = _
    rw [stepV_apply]
    refine congrArg (fun f => kerStep f k' + Ideal.ofBits .f32 0x3BA3D70A#32) (funext fun k'' => ?_)
    exact pay4_apply v0 v2 v4 p k''
  rw [h2]
  rfl

end Cert.KernelIdeal.Hand

end
-- ==== Proof.KI.Value1.lean ====
/- The value of region 1 on extended reals: the array its write-backs leave is, entry by entry, the kernel's row function
   of the arrays the region finds — from the stored block at an index, through what each point writes back and the
   blocks' cover of the array. -/
import proofs.«165057_j79379585565572_2_alg».proof.Proof.KI.Region1
import proofs.«165057_j79379585565572_2_alg».proof.Proof.KI.PayRow
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx
open Cert.KerRow

-- the TensorCore's buffer contents when the region is entered, on extended reals
variable (V : (c : Dev nD) → (b : Ref sig .tc) → Buf (Elt Ideal) ((c : Thread nD τ).loc b))

/-- The block rectangles start at the origin. -/
theorem hz1 : (![0, 0] : Fin 2 → Nat) = fun _ => 0 := funext fun a => by fin_cases a <;> rfl

/-- The array the region leaves, as one function of the arrays it finds: entry (r, j) is the kernel's row function of
    row r of x and of the rows of column minima and maxima, at column j. -/
def rowG (X : S4096x4096.Idx → EReal) (MN MX : S1x4096.Idx → EReal) : S4096x4096.Idx → EReal := fun i =>
  kerRowOut (fun k => X (ix2 (⟨(i 0).val, idx2_lt0 i⟩ : Fin 4096) k)) (fun k => MN (ix2 (0 : Fin 1) k)) (fun k => MX (ix2 (0 : Fin 1) k))
    (⟨(i 1).val, idx2_lt1 i⟩ : Fin 4096)

/-- The row function at equal arguments. -/
theorem kerRowOut_congr {x x' mn mn' mx mx' : Fin 4096 → EReal} {j j' : Fin 4096} (hx : x = x') (hmn : mn = mn') (hmx : mx = mx')
    (hj : j = j') : kerRowOut x mn mx j = kerRowOut x' mn' mx' j' := by
  subst hx hmn hmx hj; rfl

/-- The printed index maps, decided over the grid: the input block of x moves with the output block along the rows,
    every other block index is zero, and the output's row-block index is the point. -/
theorem idx_facts1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 15 :=
  (by decide +kernel : ∀ t : Fin grid1.N, _)

/-- Every block of 256 rows is some point's. -/
theorem idx_onto1 : ∀ q0 : Fin 16, ∃ t : Fin cfg1.N, win1_3.index t = ![q0.val, 0] :=
  (by decide +kernel : ∀ q0 : Fin 16, ∃ t : Fin grid1.N, win1_3.index t = ![q0.val, 0])

/-- WHAT POINT t WRITES BACK is block t of rowG of the arrays as the region finds them. -/
theorem flushed1_3_eq (c : Dev nD) (t : Fin cfg1.N) :
    (dat1 (F := Ideal) V c).flushed 3 t = ((cfg1.win 3).blk t).view.read (Elt Ideal) (rowG (V c main_v0) (V c main_v3) (V c main_v5)) := by
  show (cfg1.win 3).cut (grid1.coords t) ((dat1 V c).after 3 t) = _
  rw [after1_3]
  unfold out1_3
  rw [View.canon_unit_zero hz1]
  simp only [View.ld_unit_zero (S := S256x4096) hz1, View.ld_unit_zero (S := S1x4096) hz1]
  obtain ⟨e0, e1, e2, e3, e4, e5, e6, e7⟩ := idx_facts1 t
  funext y
  obtain ⟨p, q, rfl⟩ : ∃ (p : Fin 256) (q : Fin 4096), y = ix2 p q := ⟨y 0, y 1, eq_ix2 y⟩
  unfold pay1_3
  refine (pay_row (iblk1 V c 0 t) (iblk1 V c 1 t) (iblk1 V c 2 t) p q).trans ?_
  show _ = rowG (V c main_v0) (V c main_v3) (V c main_v5) (((cfg1.win 3).blk t).view.emb (ix2 p q))
  unfold rowG
  refine kerRowOut_congr (funext fun k => ?_) (funext fun k => ?_) (funext fun k => ?_) ?_
  · show V c main_v0 (((cfg1.win 0).blk t).view.emb (ix2 p k)) = _
    have h : ((cfg1.win 0).blk t).view.emb (ix2 p k)
        = ix2 (⟨((((cfg1.win 3).blk t).view.emb (ix2 p q)) 0).val, idx2_lt0 _⟩ : Fin 4096) k := by
      funext a; apply Fin.ext
      match a with
      | ⟨0, _⟩ => show win1_0.index t (0 : Fin 2) * 256 + 1 * p.val = win1_3.index t (0 : Fin 2) * 256 + 1 * p.val; omega
      | ⟨1, _⟩ => show win1_0.index t (1 : Fin 2) * 4096 + 1 * k.val = k.val; omega
    rw [h]
  · show V c main_v3 (((cfg1.win 1).blk t).view.emb (ix2 (0 : Fin 1) k)) = _
    have h : ((cfg1.win 1).blk t).view.emb (ix2 (0 : Fin 1) k) = ix2 (0 : Fin 1) k := by
      funext a; apply Fin.ext
      match a with
      | ⟨0, _⟩ => show win1_1.index t (0 : Fin 2) * 1 + 1 * 0 = 0; omega
      | ⟨1, _⟩ => show win1_1.index t (1 : Fin 2) * 4096 + 1 * k.val = k.val; omega
    rw [h]
  · show V c main_v5 (((cfg1.win 2).blk t).view.emb (ix2 (0 : Fin 1) k)) = _
    have h : ((cfg1.win 2).blk t).view.emb (ix2 (0 : Fin 1) k) = ix2 (0 : Fin 1) k := by
      funext a; apply Fin.ext
      match a with
      | ⟨0, _⟩ => show win1_2.index t (0 : Fin 2) * 1 + 1 * 0 = 0; omega
      | ⟨1, _⟩ => show win1_2.index t (1 : Fin 2) * 4096 + 1 * k.val = k.val; omega
    rw [h]
  · apply Fin.ext
    show q.val = win1_3.index t (1 : Fin 2) * 4096 + 1 * q.val
    omega

/-- An index of the array is in point t's block iff each coordinate is in the block's range on its axis. -/
theorem mem_blk1_3 (t : Fin cfg1.N) (i : S4096x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v6).slice (win1_3.rect t)).set ↔ _
  rw [View.set_slice_whole, Rect.mem_set_unit]
  exact Iff.rfl

/-- Every entry of the array is in the block some point writes back: row r is in block r / 256. -/
theorem cover1 (i : S4096x4096.Idx) : ∃ t : Fin cfg1.N, (cfg1.win 3).flush t = true ∧ i ∈ ((cfg1.win 3).blk t).view.set := by
  have hi0 : (i 0).val < 4096 := idx2_lt0 i
  have hi1 : (i 1).val < 4096 := idx2_lt1 i
  obtain ⟨t, ht⟩ := idx_onto1 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 4096 ≤ (i 1).val ∧ (i 1).val < win1_3.index t (1 : Fin 2) * 4096 + 4096; omega

/-- THE ARRAY after the region: rowG of the arrays the region finds. -/
theorem final1_3 (c : Dev nD) :
    (dat1 (F := Ideal) V c).arrAt 3 cfg1.N = rowG (V c main_v0) (V c main_v3) (V c main_v5) :=
  (dat1 V c).arrAt_eq_of_cover 3 _ (fun t _ => flushed1_3_eq V c t) cover1

/-- THE VALUE of region 1: entry (r, j) of its output array is the kernel's row function of row r of x and the rows of
    column minima and maxima, at column j. -/
theorem value1 (c : Dev nD) (r j : Fin 4096) :
    (dat1 (F := Ideal) V c).arrAt 3 cfg1.N (ix2 r j)
      = kerRowOut (fun k => V c main_v0 (ix2 r k)) (fun k => V c main_v3 (ix2 (0 : Fin 1) k)) (fun k => V c main_v5 (ix2 (0 : Fin 1) k)) j := by
  rw [final1_3]
  rfl

end Cert.KernelIdeal.Hand

end
-- ==== Proof.InfSup.lean ====
/-
  Column minima and maxima over the extended reals.

  * the fold of `min` from `⊤` (of `max` from `⊥`) over a finite set is the set's infimum (supremum), also with the
    float operations' names and the infinities as the f32 words that denote them;
  * an infimum over all indices does not change when it is taken through a surjective re-indexing, in particular when
    the 4096 rows are read as 16 partial results, each the infimum of one half (2048 rows) of the rows, or as blocks of
    equal length;
  * the infimum and the supremum of a nonempty finite family of reals are reals: the coercions of the real
    `Finset.inf'` and `Finset.sup'`.
-/
import Mathlib
import Idealize.ShloMosaic.PureOps.Ideal
import Idealize.ShloMosaic.PureOps.Ideal.Laws

noncomputable section

namespace Cert.Math

open Idealize.ShloMosaic

/-! ## Folds are infima and suprema -/

theorem fold_min_top {ι : Type*} (s : Finset ι) (f : ι → EReal) : s.fold min ⊤ f = s.inf f := rfl

theorem fold_max_bot {ι : Type*} (s : Finset ι) (f : ι → EReal) : s.fold max ⊥ f = s.sup f := rfl

/-- The fold of the float minimum from the word of `+∞` is the infimum. -/
theorem fold_minimumf {ι : Type*} (s : Finset ι) (f : ι → EReal) :
    s.fold (FloatOps.minimumf (F := Ideal) (φ := .f32)) (FloatOps.ofBits (F := Ideal) .f32 0x7F800000#32) f = s.inf f := by
  have h : FloatOps.ofBits (F := Ideal) .f32 0x7F800000#32 = (⊤ : EReal) := by
    simp [Ideal.ofBits, Ideal.ieee]
  rw [h]; rfl

/-- The fold of the float maximum from the word of `-∞` is the supremum. -/
theorem fold_maximumf {ι : Type*} (s : Finset ι) (f : ι → EReal) :
    s.fold (FloatOps.maximumf (F := Ideal) (φ := .f32)) (FloatOps.ofBits (F := Ideal) .f32 0xFF800000#32) f = s.sup f := by
  have h : FloatOps.ofBits (F := Ideal) .f32 0xFF800000#32 = (⊥ : EReal) := by
    simp [Ideal.ofBits, Ideal.ieee]
  rw [h]; rfl

/-! ## Re-indexing an infimum or a supremum over all indices -/

section Lattice
variable {α : Type*}

/-- An infimum over all indices, taken through a surjective re-indexing, is the same infimum. -/
theorem inf_comp_surj [SemilatticeInf α] [OrderTop α] {ι κ : Type*} [Fintype ι] [Fintype κ] (f : ι → α) (e : κ → ι)
    (he : Function.Surjective e) : (Finset.univ.inf fun k => f (e k)) = Finset.univ.inf f := by
  apply le_antisymm
  · refine Finset.le_inf fun i _ => ?_
    obtain ⟨k, rfl⟩ := he i
    exact Finset.inf_le (f := fun k => f (e k)) (Finset.mem_univ k)
  · exact Finset.le_inf fun k _ => Finset.inf_le (Finset.mem_univ (e k))

theorem sup_comp_surj [SemilatticeSup α] [OrderBot α] {ι κ : Type*} [Fintype ι] [Fintype κ] (f : ι → α) (e : κ → ι)
    (he : Function.Surjective e) : (Finset.univ.sup fun k => f (e k)) = Finset.univ.sup f := by
  apply le_antisymm
  · exact Finset.sup_le fun k _ => Finset.le_sup (Finset.mem_univ (e k))
  · refine Finset.sup_le fun i _ => ?_
    obtain ⟨k, rfl⟩ := he i
    exact Finset.le_sup (f := fun k => f (e k)) (Finset.mem_univ k)

/-- A nested infimum over all pairs, through a re-indexing of the pairs onto the indices, is the infimum. -/
theorem inf_inf_surj [SemilatticeInf α] [OrderTop α] {ι κ₁ κ₂ : Type*} [Fintype ι] [Fintype κ₁] [Fintype κ₂] (f : ι → α)
    (e : κ₁ → κ₂ → ι) (he : ∀ i, ∃ a b, e a b = i) :
    (Finset.univ.inf fun a => Finset.univ.inf fun b => f (e a b)) = Finset.univ.inf f := by
  apply le_antisymm
  · refine Finset.le_inf fun i _ => ?_
    obtain ⟨a, b, rfl⟩ := he i
    exact (Finset.inf_le (f := fun a => Finset.univ.inf fun b => f (e a b)) (Finset.mem_univ a)).trans
      (Finset.inf_le (f := fun b => f (e a b)) (Finset.mem_univ b))
  · exact Finset.le_inf fun a _ => Finset.le_inf fun b _ => Finset.inf_le (Finset.mem_univ (e a b))

theorem sup_sup_surj [SemilatticeSup α] [OrderBot α] {ι κ₁ κ₂ : Type*} [Fintype ι] [Fintype κ₁] [Fintype κ₂] (f : ι → α)
    (e : κ₁ → κ₂ → ι) (he : ∀ i, ∃ a b, e a b = i) :
    (Finset.univ.sup fun a => Finset.univ.sup fun b => f (e a b)) = Finset.univ.sup f := by
  apply le_antisymm
  · exact Finset.sup_le fun a _ => Finset.sup_le fun b _ => Finset.le_sup (Finset.mem_univ (e a b))
  · refine Finset.sup_le fun i _ => ?_
    obtain ⟨a, b, rfl⟩ := he i
    exact (Finset.le_sup (f := fun b => f (e a b)) (Finset.mem_univ b)).trans
      (Finset.le_sup (f := fun a => Finset.univ.sup fun b => f (e a b)) (Finset.mem_univ a))

end Lattice

/-! ## The 4096 rows as 16 partial rows of two halves, and a half as 8 blocks of 256 rows -/

/-- Sixteen partial results, row `r` the infimum of half `r / 8` of the 4096 rows, have the infimum of all rows. -/
theorem inf_partials (f : Fin 4096 → EReal) :
    (Finset.univ.inf fun r : Fin 16 => Finset.univ.inf fun k : Fin 2048 =>
        f ⟨2048 * (r.val / 8) + k.val, by have := r.isLt; have := k.isLt; omega⟩)
      = Finset.univ.inf f :=
  inf_inf_surj f (fun (r : Fin 16) (k : Fin 2048) => (⟨2048 * (r.val / 8) + k.val, by have := r.isLt; have := k.isLt; omega⟩ : Fin 4096))
    (fun i => ⟨⟨8 * (i.val / 2048), by have := i.isLt; omega⟩, ⟨i.val % 2048, Nat.mod_lt _ (by norm_num)⟩,
      Fin.ext (by simp only; have := i.isLt; omega)⟩)

theorem sup_partials (f : Fin 4096 → EReal) :
    (Finset.univ.sup fun r : Fin 16 => Finset.univ.sup fun k : Fin 2048 =>
        f ⟨2048 * (r.val / 8) + k.val, by have := r.isLt; have := k.isLt; omega⟩)
      = Finset.univ.sup f :=
  sup_sup_surj f (fun (r : Fin 16) (k : Fin 2048) => (⟨2048 * (r.val / 8) + k.val, by have := r.isLt; have := k.isLt; omega⟩ : Fin 4096))
    (fun i => ⟨⟨8 * (i.val / 2048), by have := i.isLt; omega⟩, ⟨i.val % 2048, Nat.mod_lt _ (by norm_num)⟩,
      Fin.ext (by simp only; have := i.isLt; omega)⟩)

/-- A half of 2048 rows, read as 8 blocks of 256 rows: the infimum of the blocks' infima is the half's. -/
theorem inf_blocks (g : Fin 2048 → EReal) :
    (Finset.univ.inf fun j : Fin 8 => Finset.univ.inf fun k : Fin 256 =>
        g ⟨256 * j.val + k.val, by have := j.isLt; have := k.isLt; omega⟩)
      = Finset.univ.inf g :=
  inf_inf_surj g (fun (j : Fin 8) (k : Fin 256) => (⟨256 * j.val + k.val, by have := j.isLt; have := k.isLt; omega⟩ : Fin 2048))
    (fun i => ⟨⟨i.val / 256, by have := i.isLt; omega⟩, ⟨i.val % 256, Nat.mod_lt _ (by norm_num)⟩,
      Fin.ext (by simp only; have := i.isLt; omega)⟩)

theorem sup_blocks (g : Fin 2048 → EReal) :
    (Finset.univ.sup fun j : Fin 8 => Finset.univ.sup fun k : Fin 256 =>
        g ⟨256 * j.val + k.val, by have := j.isLt; have := k.isLt; omega⟩)
      = Finset.univ.sup g :=
  sup_sup_surj g (fun (j : Fin 8) (k : Fin 256) => (⟨256 * j.val + k.val, by have := j.isLt; have := k.isLt; omega⟩ : Fin 2048))
    (fun i => ⟨⟨i.val / 256, by have := i.isLt; omega⟩, ⟨i.val % 256, Nat.mod_lt _ (by norm_num)⟩,
      Fin.ext (by simp only; have := i.isLt; omega)⟩)

/-! ## The infimum and supremum of finitely many reals -/

/-- The infimum of a nonempty finite family of reals is the real infimum. -/
theorem inf_coe {ι : Type*} (s : Finset ι) (hs : s.Nonempty) (g : ι → ℝ) :
    (s.inf fun i => ((g i : ℝ) : EReal)) = ((s.inf' hs g : ℝ) : EReal) := by
  obtain ⟨i, hi, h⟩ := Finset.exists_mem_eq_inf' hs g
  rw [h]
  apply le_antisymm
  · exact Finset.inf_le (f := fun i => ((g i : ℝ) : EReal)) hi
  · exact Finset.le_inf fun j hj => EReal.coe_le_coe_iff.mpr (h ▸ Finset.inf'_le g hj)

/-- The supremum of a nonempty finite family of reals is the real supremum. -/
theorem sup_coe {ι : Type*} (s : Finset ι) (hs : s.Nonempty) (g : ι → ℝ) :
    (s.sup fun i => ((g i : ℝ) : EReal)) = ((s.sup' hs g : ℝ) : EReal) := by
  obtain ⟨i, hi, h⟩ := Finset.exists_mem_eq_sup' hs g
  rw [h]
  apply le_antisymm
  · exact Finset.sup_le fun j hj => EReal.coe_le_coe_iff.mpr (h ▸ Finset.le_sup' g hj)
  · exact Finset.le_sup (f := fun i => ((g i : ℝ) : EReal)) hi

/-- Existence form: the infimum of a nonempty finite family of reals is a real. -/
theorem exists_real_inf {ι : Type*} (s : Finset ι) (hs : s.Nonempty) (f : ι → EReal)
    (hf : ∀ i ∈ s, ∃ q : ℝ, f i = (q : EReal)) : ∃ q : ℝ, s.inf f = (q : EReal) := by
  classical
  choose! g hg using hf
  refine ⟨s.inf' hs g, ?_⟩
  rw [← inf_coe s hs g]
  exact Finset.inf_congr rfl fun i hi => hg i hi

/-- Existence form: the supremum of a nonempty finite family of reals is a real. -/
theorem exists_real_sup {ι : Type*} (s : Finset ι) (hs : s.Nonempty) (f : ι → EReal)
    (hf : ∀ i ∈ s, ∃ q : ℝ, f i = (q : EReal)) : ∃ q : ℝ, s.sup f = (q : EReal) := by
  classical
  choose! g hg using hf
  refine ⟨s.sup' hs g, ?_⟩
  rw [← sup_coe s hs g]
  exact Finset.sup_congr rfl fun i hi => hg i hi

/-- Over all 4096 rows: the real minimum and maximum of a real column, with the bounds every entry obeys. -/
theorem univ_inf_coe (g : Fin 4096 → ℝ) :
    (Finset.univ.inf fun i => ((g i : ℝ) : EReal)) = ((Finset.univ.inf' ⟨0, Finset.mem_univ _⟩ g : ℝ) : EReal) :=
  inf_coe _ _ g

theorem univ_sup_coe (g : Fin 4096 → ℝ) :
    (Finset.univ.sup fun i => ((g i : ℝ) : EReal)) = ((Finset.univ.sup' ⟨0, Finset.mem_univ _⟩ g : ℝ) : EReal) :=
  sup_coe _ _ g

end Cert.Math

end
-- ==== Proof.KI.HostMinMax.lean ====
/-
  The host's reductions between the two kernels, read at a column: the sixteen partial rows of column minima (maxima)
  are reduced over their row axis from +∞ (−∞) and the row of 4096 results is read as a 1 × 4096 array; at column k
  the result is the infimum (supremum) over the sixteen rows of the entry at (r, k).
-/
import proofs.«165057_j79379585565572_2_alg».proof.KernelIdeal
import Idealize.ShloMosaic.Lib.ValueIdx
import Idealize.ShloMosaic.Lib.Pipeline.Value
import Idealize.ShloMosaic.PureOps.Ideal.Laws
import proofs.«165057_j79379585565572_2_alg».proof.Proof.InfSup

noncomputable section

namespace Cert.KernelIdeal.Hand

open Cert.KernelIdeal Idealize.ShloMosaic

/-- The reduced index `k` with row `r` put back is (r, k). -/
theorem lift_ix2_16 (h : S16x4096.Reduces [0] S4096) (k : Fin 4096) (r : Fin (S16x4096.size 0)) :
    h.lift (ValueIdx.ix1 k) r = ValueIdx.ix2 (⟨r.val, r.isLt⟩ : Fin 16) k := by
  funext c; apply Fin.ext
  fin_cases c <;> rfl

/-- The row of 4096 read as a 1 × 4096 array: entry (0, k) is entry k. -/
theorem bcast_row_apply (hb : S4096.BroadcastsInDim S1x4096 (![1] : Fin 1 → Fin S1x4096.rank)) {α : Type} (v : S4096.Idx → α)
    (k : Fin 4096) : broadcastInDim S1x4096 ![1] hb v (ValueIdx.ix2 0 k) = v (ValueIdx.ix1 k) :=
  broadcastInDim_apply ![1] hb v (ValueIdx.ix2 0 k) (ValueIdx.ix1 k) (fun a => by fin_cases a; rfl)

/-- The reduction of the sixteen rows by the minimum from +∞, at column `k`. -/
theorem hostReduceMin_apply (hr : S16x4096.ReducesTo [0] S4096) (hu : 0 < S_.numel) (A : S16x4096.Idx → EReal) (k : Fin 4096) :
    Host.reduce (FloatOps.minimumf (F := Ideal) (φ := .f32)) A (constant (F := Ideal) S_ .f32 0x7F800000#32) hr hu (ValueIdx.ix1 k)
      = Finset.univ.inf fun r : Fin 16 => A (ValueIdx.ix2 r k) := by
  have h : S16x4096.Reduces [0] S4096 := by decide
  rw [Host.reduce_eq_fold_single (FloatOps.minimumf (F := Ideal) (φ := .f32)) A _ hr h hu]
  have hf : (A ∘ h.lift (ValueIdx.ix1 k)) = fun r : Fin 16 => A (ValueIdx.ix2 r k) :=
    funext fun r => congrArg A (lift_ix2_16 h k r)
  rw [hf]
  exact Cert.Math.fold_minimumf _ _

/-- The reduction of the sixteen rows by the maximum from −∞, at column `k`. -/
theorem hostReduceMax_apply (hr : S16x4096.ReducesTo [0] S4096) (hu : 0 < S_.numel) (A : S16x4096.Idx → EReal) (k : Fin 4096) :
    Host.reduce (FloatOps.maximumf (F := Ideal) (φ := .f32)) A (constant (F := Ideal) S_ .f32 0xFF800000#32) hr hu (ValueIdx.ix1 k)
      = Finset.univ.sup fun r : Fin 16 => A (ValueIdx.ix2 r k) := by
  have h : S16x4096.Reduces [0] S4096 := by decide
  rw [Host.reduce_eq_fold_single (FloatOps.maximumf (F := Ideal) (φ := .f32)) A _ hr h hu]
  have hf : (A ∘ h.lift (ValueIdx.ix1 k)) = fun r : Fin 16 => A (ValueIdx.ix2 r k) :=
    funext fun r => congrArg A (lift_ix2_16 h k r)
  rw [hf]
  exact Cert.Math.fold_maximumf _ _

/-- The row of column minima the second kernel reads, at column `k`: the infimum of the sixteen partial rows there. -/
theorem hostMin_apply' (hr : S16x4096.ReducesTo [0] S4096) (hb : S4096.BroadcastsInDim S1x4096 (![1] : Fin 1 → Fin S1x4096.rank))
    (hu : 0 < S_.numel) (A : S16x4096.Idx → EReal) (k : Fin 4096) :
    broadcastInDim S1x4096 ![1] hb
        (Host.reduce (FloatOps.minimumf (F := Ideal) (φ := .f32)) A (constant (F := Ideal) S_ .f32 0x7F800000#32) hr hu) (ValueIdx.ix2 0 k)
      = Finset.univ.inf fun r : Fin 16 => A (ValueIdx.ix2 r k) := by
  rw [bcast_row_apply hb, hostReduceMin_apply]

/-- The row of column maxima the second kernel reads, at column `k`: the supremum of the sixteen partial rows there. -/
theorem hostMax_apply' (hr : S16x4096.ReducesTo [0] S4096) (hb : S4096.BroadcastsInDim S1x4096 (![1] : Fin 1 → Fin S1x4096.rank))
    (hu : 0 < S_.numel) (A : S16x4096.Idx → EReal) (k : Fin 4096) :
    broadcastInDim S1x4096 ![1] hb
        (Host.reduce (FloatOps.maximumf (F := Ideal) (φ := .f32)) A (constant (F := Ideal) S_ .f32 0xFF800000#32) hr hu) (ValueIdx.ix2 0 k)
      = Finset.univ.sup fun r : Fin 16 => A (ValueIdx.ix2 r k) := by
  rw [bcast_row_apply hb, hostReduceMax_apply]

section WithFacts
variable [Cert.KernelIdeal.Facts]
open Cert.KernelIdeal.Facts₀

/-- The same two, with the program's own shape facts. -/
theorem hostMin_apply (A : S16x4096.Idx → EReal) (k : Fin 4096) :
    broadcastInDim S1x4096 ![1] bcast_S4096_S1x4096_1
        (Host.reduce FloatOps.minimumf A (constant (F := Ideal) S_ .f32 0x7F800000#32) reducesTo_S16x4096_S4096_d0 h_S_) (ValueIdx.ix2 0 k)
      = Finset.univ.inf fun r : Fin 16 => A (ValueIdx.ix2 r k) :=
  hostMin_apply' _ _ _ A k

theorem hostMax_apply (A : S16x4096.Idx → EReal) (k : Fin 4096) :
    broadcastInDim S1x4096 ![1] bcast_S4096_S1x4096_1
        (Host.reduce FloatOps.maximumf A (constant (F := Ideal) S_ .f32 0xFF800000#32) reducesTo_S16x4096_S4096_d0 h_S_) (ValueIdx.ix2 0 k)
      = Finset.univ.sup fun r : Fin 16 => A (ValueIdx.ix2 r k) :=
  hostMax_apply' _ _ _ A k

end WithFacts

end Cert.KernelIdeal.Hand

end
-- ==== Proof.RefRow.lean ====
/- The row arithmetic of the reference normalisation, on extended reals, with no program in sight: for one row x of
   4096 entries and the column minima mn and maxima mx, the entry the reference leaves at column j. Every operation is
   the extended-real one in the order and grouping the reference applies it; the float literals stay the f32 words. -/
import Mathlib
import Idealize.ShloMosaic.PureOps.Ideal

noncomputable section

open scoped BigOperators

namespace Cert.RefRow

open Idealize.ShloMosaic

/-- The column range mx − mn, with 1 where it compares equal to zero. -/
def refRng (mn mx : Fin 4096 → EReal) (j : Fin 4096) : EReal :=
  Scalar.select (Ideal.cmp .oeq (mx j - mn j) (Ideal.ofBits .f32 0x00000000#32)) (Ideal.ofBits .f32 0x3F800000#32) (mx j - mn j)

/-- The row mapped into the unit range: (x − mn) divided by the range. -/
def refArr (x mn mx : Fin 4096 → EReal) (j : Fin 4096) : EReal :=
  Ideal.div (x j - mn j) (refRng mn mx j)

/-- The row's sum S, from the zero word. -/
def refSum (a : Fin 4096 → EReal) : EReal :=
  Ideal.ofBits .f32 0x00000000#32 + ∑ k : Fin 4096, a k

/-- The row's sum of squares SS, from the zero word. -/
def refSumSq (a : Fin 4096 → EReal) : EReal :=
  Ideal.ofBits .f32 0x00000000#32 + ∑ k : Fin 4096, a k * a k

/-- The root term of a row a at column j: the square root of max (4096·a_j·a_j − 2·a_j·S + SS, 0) · c, c the word
    nearest 1/4095. -/
def refRoot (a : Fin 4096 → EReal) (j : Fin 4096) : EReal :=
  Ideal.sqrt (max (Ideal.ofBits .f32 0x45800000#32 * a j * a j - Ideal.ofBits .f32 0x40000000#32 * a j * refSum a + refSumSq a)
      (Ideal.ofBits .f32 0x00000000#32) * Ideal.ofBits .f32 0x39800801#32)

/-- The entry centred at the row's mean: a_j − S / 4096. -/
def refCen (a : Fin 4096 → EReal) (j : Fin 4096) : EReal :=
  a j - Ideal.div (refSum a) (Ideal.ofBits .f32 0x45800000#32)

/-- One damping round: a_j · (1 − 0.1·root_j·sign(centred_j)) + eps. -/
def refStep (eps : EReal) (a : Fin 4096 → EReal) (j : Fin 4096) : EReal :=
  a j * (Ideal.ofBits .f32 0x3F800000#32 - Ideal.ofBits .f32 0x3DCCCCCD#32 * refRoot a j * Ideal.sign (refCen a j)) + eps

/-- The reference's row: three damping rounds of the normalised row, the word nearest 0.005 added in the first and the
    zero word in the other two, mapped back by the range and the minima. -/
def refRowOut (x mn mx : Fin 4096 → EReal) (j : Fin 4096) : EReal :=
  refStep (Ideal.ofBits .f32 0x00000000#32)
      (refStep (Ideal.ofBits .f32 0x00000000#32) (refStep (Ideal.ofBits .f32 0x3BA3D70A#32) (refArr x mn mx))) j
    * refRng mn mx j + mn j

end Cert.RefRow

end
-- ==== Proof.RefStages.lean ====
/- The reference's value, stage by stage, read at an entry (r, j): the column minima and maxima are the infimum and the
   supremum of the column over all rows, the range is their difference with 1 where it is zero, and each of the three
   damping rounds is one step of the row arithmetic of `Cert.RefRow` applied to the row the round starts from; the
   result is the closed form `refRowOut` of the row, the column minima and the column maxima. -/
import proofs.«165057_j79379585565572_2_alg».proof.Proof.RefRead
import proofs.«165057_j79379585565572_2_alg».proof.Proof.RefRow
import Idealize.ShloMosaic.Lib.ValueIdx
import Idealize.ShloMosaic.PureOps.Reduce

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx
open Cert.RefRow

/-- The contents of the argument: extended reals over [1, 4096, 4096]. -/
abbrev Arg : Type := (⟨S1x4096x4096, .f32⟩ : BufTy).Contents (Elt Ideal)

/-! ### The column minima and maxima -/

/-- A reduced column index with the row put back is the pair. -/
theorem lift_col {n m : ℕ} (h : (⟨2, ![n, m]⟩ : Shape).Reduces [0] (⟨1, ![m]⟩ : Shape)) (c : Fin m)
    (k : Fin ((⟨2, ![n, m]⟩ : Shape).size 0)) : h.lift (ix1 c) k = ix2 (⟨k.val, k.isLt⟩ : Fin n) c := by
  funext a; apply Fin.ext
  fin_cases a <;> rfl

theorem reduces_rows : S4096x4096.Reduces [0] S4096 := by decide

/-- The column minimum at column j is the infimum of the column over all rows. -/
theorem mn_apply (x0 : Arg) (j : Fin 4096) :
    val_main_v1 (F := Ideal) x0 (ix1 j) = Finset.univ.inf fun r : Fin 4096 => val_main_v0 (F := Ideal) x0 (ix2 r j) := by
  unfold val_main_v1
  generalize val_main_v0 (F := Ideal) x0 = y
  rw [Host.reduce_eq_fold_single (FloatOps.minimumf (F := Ideal) (φ := .f32)) y _ reducesTo_S4096x4096_S4096_d0 reduces_rows h_S_, val_main_cst_apply]
  have hb : FloatOps.ofBits (F := Ideal) .f32 0x7F800000#32 = (⊤ : EReal) := by simp [Ideal.ofBits, Ideal.ieee]
  rw [hb]
  have hf : (y ∘ reduces_rows.lift (ix1 j)) = fun k : Fin 4096 => y (ix2 k j) :=
    funext fun k => congrArg y (lift_col reduces_rows j k)
  exact congrArg (fun f => Finset.fold min (⊤ : EReal) f (Finset.univ : Finset (Fin 4096))) hf

/-- The column maximum at column j is the supremum of the column over all rows. -/
theorem mx_apply (x0 : Arg) (j : Fin 4096) :
    val_main_v2 (F := Ideal) x0 (ix1 j) = Finset.univ.sup fun r : Fin 4096 => val_main_v0 (F := Ideal) x0 (ix2 r j) := by
  unfold val_main_v2
  generalize val_main_v0 (F := Ideal) x0 = y
  rw [Host.reduce_eq_fold_single (FloatOps.maximumf (F := Ideal) (φ := .f32)) y _ reducesTo_S4096x4096_S4096_d0 reduces_rows h_S_, val_main_cst_0_apply]
  have hb : FloatOps.ofBits (F := Ideal) .f32 0xFF800000#32 = (⊥ : EReal) := by simp [Ideal.ofBits, Ideal.ieee]
  rw [hb]
  have hf : (y ∘ reduces_rows.lift (ix1 j)) = fun k : Fin 4096 => y (ix2 k j) :=
    funext fun k => congrArg y (lift_col reduces_rows j k)
  exact congrArg (fun f => Finset.fold max (⊥ : EReal) f (Finset.univ : Finset (Fin 4096))) hf

/-- The column minima and maxima of the argument read as a matrix. -/
def colMin (x0 : Arg) (k : Fin 4096) : EReal := Finset.univ.inf fun r : Fin 4096 => val_main_v0 (F := Ideal) x0 (ix2 r k)
def colMax (x0 : Arg) (k : Fin 4096) : EReal := Finset.univ.sup fun r : Fin 4096 => val_main_v0 (F := Ideal) x0 (ix2 r k)

/-! ### The range and the normalised row -/

/-- The range at column j: the maximum minus the minimum, 1 where that is zero. -/
theorem rng_apply (x0 : Arg) (j : Fin 4096) :
    val_main_v7 (F := Ideal) x0 (ix1 j) = refRng (colMin x0) (colMax x0) j := by
  rw [val_main_v7_apply, val_main_v5_apply, val_main_v6_apply, val_main_cst_2_apply, val_main_v4_apply,
    val_main_cst_1_apply, val_main_v3_apply, mx_apply, mn_apply]
  simp only [Ideal.cmpf_def, Ideal.subf_def, Ideal.ofBits_def]
  rfl

/-- The minima and the range broadcast over the rows. -/
theorem bmn_apply (x0 : Arg) (r j : Fin 4096) :
    val_main_v9 (F := Ideal) x0 (ix2 r j) = val_main_v1 (F := Ideal) x0 (ix1 j) := by
  rw [val_main_v9_apply, val_main_v8_apply]
  exact congrArg (val_main_v1 (F := Ideal) x0) (funext fun d => Fin.ext (by match d with | ⟨0, _⟩ => rfl))

theorem brng_apply (x0 : Arg) (r j : Fin 4096) :
    val_main_v12 (F := Ideal) x0 (ix2 r j) = val_main_v7 (F := Ideal) x0 (ix1 j) := by
  rw [val_main_v12_apply, val_main_v11_apply]
  exact congrArg (val_main_v7 (F := Ideal) x0) (funext fun d => Fin.ext (by match d with | ⟨0, _⟩ => rfl))

theorem brng'_apply (x0 : Arg) (r j : Fin 4096) :
    val_main_v114 (F := Ideal) x0 (ix2 r j) = val_main_v7 (F := Ideal) x0 (ix1 j) := by
  rw [val_main_v114_apply, val_main_v113_apply]
  exact congrArg (val_main_v7 (F := Ideal) x0) (funext fun d => Fin.ext (by match d with | ⟨0, _⟩ => rfl))

theorem bmn'_apply (x0 : Arg) (r j : Fin 4096) :
    val_main_v117 (F := Ideal) x0 (ix2 r j) = val_main_v1 (F := Ideal) x0 (ix1 j) := by
  rw [val_main_v117_apply, val_main_v116_apply]
  exact congrArg (val_main_v1 (F := Ideal) x0) (funext fun d => Fin.ext (by match d with | ⟨0, _⟩ => rfl))

/-- The normalised entry at (r, j). -/
theorem arr_apply (x0 : Arg) (r j : Fin 4096) :
    val_main_v13 (F := Ideal) x0 (ix2 r j)
      = refArr (fun k => val_main_v0 (F := Ideal) x0 (ix2 r k)) (colMin x0) (colMax x0) j := by
  rw [val_main_v13_apply, brng_apply, rng_apply, val_main_v10_apply, bmn_apply, mn_apply]
  simp only [Ideal.hostDivf_def, Ideal.subf_def]
  rfl

/-! ### Round 1 -/

/-- The row sum of round 1 at row r. -/
theorem round1_sum (x0 : Arg) (r : Fin 4096) :
    val_main_v14 (F := Ideal) x0 (ix1 r) = refSum fun k => val_main_v13 (F := Ideal) x0 (ix2 r k) := by
  rw [val_main_v14_apply, val_main_cst_3_apply]
  exact congrArg (_ + ·) (Finset.sum_congr rfl fun k _ => congrArg (val_main_v13 (F := Ideal) x0)
    (funext fun d => Fin.ext (by match d with | ⟨0, _⟩ => rfl | ⟨1, _⟩ => rfl)))

/-- The row sum of squares of round 1 at row r. -/
theorem round1_sumSq (x0 : Arg) (r : Fin 4096) :
    val_main_v17 (F := Ideal) x0 (ix1 r) = refSumSq fun k => val_main_v13 (F := Ideal) x0 (ix2 r k) := by
  rw [val_main_v17_apply, val_main_cst_4_apply]
  refine congrArg (_ + ·) (Finset.sum_congr rfl fun k _ => ?_)
  rw [val_main_v16_apply]
  have e : idx_main_v17 (ix1 r) k = ix2 r k :=
    funext fun d => Fin.ext (by match d with | ⟨0, _⟩ => rfl | ⟨1, _⟩ => rfl)
  rw [e]; rfl

/-- The three row quantities of round 1 broadcast along the row: the sum, the sum of squares, the mean. -/
theorem round1_bsum (x0 : Arg) (r j : Fin 4096) :
    val_main_v24 (F := Ideal) x0 (ix2 r j) = val_main_v14 (F := Ideal) x0 (ix1 r) := by
  rw [val_main_v24_apply, val_main_v15_apply]
  exact congrArg (val_main_v14 (F := Ideal) x0) (funext fun d => Fin.ext (by match d with | ⟨0, _⟩ => rfl))

theorem round1_bsumSq (x0 : Arg) (r j : Fin 4096) :
    val_main_v27 (F := Ideal) x0 (ix2 r j) = val_main_v17 (F := Ideal) x0 (ix1 r) := by
  rw [val_main_v27_apply, val_main_v18_apply]
  exact congrArg (val_main_v17 (F := Ideal) x0) (funext fun d => Fin.ext (by match d with | ⟨0, _⟩ => rfl))

theorem round1_bmean (x0 : Arg) (r j : Fin 4096) :
    val_main_v38 (F := Ideal) x0 (ix2 r j)
      = Ideal.div (val_main_v14 (F := Ideal) x0 (ix1 r)) (Ideal.ofBits .f32 0x45800000#32) := by
  rw [val_main_v38_apply, val_main_v35_apply, val_main_v34_apply, val_main_cst_9_apply, val_main_v15_apply]
  exact congrArg (fun i => Ideal.div (val_main_v14 (F := Ideal) x0 i) (Ideal.ofBits .f32 0x45800000#32))
    (funext fun d => Fin.ext (by match d with | ⟨0, _⟩ => rfl))

/-- Round 1 at (r, j): one damping step of the row it starts from. -/
theorem round1 (x0 : Arg) (r j : Fin 4096) :
    val_main_v46 (F := Ideal) x0 (ix2 r j)
      = refStep (Ideal.ofBits .f32 0x3BA3D70A#32) (fun k => val_main_v13 (F := Ideal) x0 (ix2 r k)) j := by
  rw [val_main_v46_apply, val_main_v45_apply, val_main_cst_12_apply, val_main_v44_apply, val_main_v43_apply, val_main_v42_apply, val_main_cst_11_apply,
    val_main_v41_apply, val_main_v40_apply, val_main_v39_apply, round1_bmean, val_main_v37_apply, val_main_v36_apply, val_main_cst_10_apply,
    val_main_v33_apply, val_main_v32_apply, val_main_v31_apply, val_main_cst_8_apply, val_main_v30_apply, val_main_v29_apply, val_main_cst_7_apply,
    val_main_v28_apply, round1_bsumSq, val_main_v26_apply, val_main_v25_apply, round1_bsum, val_main_v23_apply, val_main_v22_apply,
    val_main_cst_6_apply, val_main_v21_apply, val_main_v20_apply, val_main_v19_apply, val_main_cst_5_apply, round1_sum, round1_sumSq]
  simp only [Ideal.addf_def, Ideal.subf_def, Ideal.mulf_def, Ideal.maximumf_def, Ideal.hostUnary_sqrt_def,
    Ideal.hostUnary_sign_def, Ideal.ofBits_def]
  rfl

/-! ### Round 2 -/

/-- The row sum of round 2 at row r. -/
theorem round2_sum (x0 : Arg) (r : Fin 4096) :
    val_main_v47 (F := Ideal) x0 (ix1 r) = refSum fun k => val_main_v46 (F := Ideal) x0 (ix2 r k) := by
  rw [val_main_v47_apply, val_main_cst_13_apply]
  exact congrArg (_ + ·) (Finset.sum_congr rfl fun k _ => congrArg (val_main_v46 (F := Ideal) x0)
    (funext fun d => Fin.ext (by match d with | ⟨0, _⟩ => rfl | ⟨1, _⟩ => rfl)))

/-- The row sum of squares of round 2 at row r. -/
theorem round2_sumSq (x0 : Arg) (r : Fin 4096) :
    val_main_v50 (F := Ideal) x0 (ix1 r) = refSumSq fun k => val_main_v46 (F := Ideal) x0 (ix2 r k) := by
  rw [val_main_v50_apply, val_main_cst_14_apply]
  refine congrArg (_ + ·) (Finset.sum_congr rfl fun k _ => ?_)
  rw [val_main_v49_apply]
  have e : idx_main_v50 (ix1 r) k = ix2 r k :=
    funext fun d => Fin.ext (by match d with | ⟨0, _⟩ => rfl | ⟨1, _⟩ => rfl)
  rw [e]; rfl

/-- The three row quantities of round 2 broadcast along the row: the sum, the sum of squares, the mean. -/
theorem round2_bsum (x0 : Arg) (r j : Fin 4096) :
    val_main_v57 (F := Ideal) x0 (ix2 r j) = val_main_v47 (F := Ideal) x0 (ix1 r) := by
  rw [val_main_v57_apply, val_main_v48_apply]
  exact congrArg (val_main_v47 (F := Ideal) x0) (funext fun d => Fin.ext (by match d with | ⟨0, _⟩ => rfl))

theorem round2_bsumSq (x0 : Arg) (r j : Fin 4096) :
    val_main_v60 (F := Ideal) x0 (ix2 r j) = val_main_v50 (F := Ideal) x0 (ix1 r) := by
  rw [val_main_v60_apply, val_main_v51_apply]
  exact congrArg (val_main_v50 (F := Ideal) x0) (funext fun d => Fin.ext (by match d with | ⟨0, _⟩ => rfl))

theorem round2_bmean (x0 : Arg) (r j : Fin 4096) :
    val_main_v71 (F := Ideal) x0 (ix2 r j)
      = Ideal.div (val_main_v47 (F := Ideal) x0 (ix1 r)) (Ideal.ofBits .f32 0x45800000#32) := by
  rw [val_main_v71_apply, val_main_v68_apply, val_main_v67_apply, val_main_cst_19_apply, val_main_v48_apply]
  exact congrArg (fun i => Ideal.div (val_main_v47 (F := Ideal) x0 i) (Ideal.ofBits .f32 0x45800000#32))
    (funext fun d => Fin.ext (by match d with | ⟨0, _⟩ => rfl))

/-- Round 2 at (r, j): one damping step of the row it starts from. -/
theorem round2 (x0 : Arg) (r j : Fin 4096) :
    val_main_v79 (F := Ideal) x0 (ix2 r j)
      = refStep (Ideal.ofBits .f32 0x00000000#32) (fun k => val_main_v46 (F := Ideal) x0 (ix2 r k)) j := by
  rw [val_main_v79_apply, val_main_v78_apply, val_main_cst_22_apply, val_main_v77_apply, val_main_v76_apply, val_main_v75_apply, val_main_cst_21_apply,
    val_main_v74_apply, val_main_v73_apply, val_main_v72_apply, round2_bmean, val_main_v70_apply, val_main_v69_apply, val_main_cst_20_apply,
    val_main_v66_apply, val_main_v65_apply, val_main_v64_apply, val_main_cst_18_apply, val_main_v63_apply, val_main_v62_apply, val_main_cst_17_apply,
    val_main_v61_apply, round2_bsumSq, val_main_v59_apply, val_main_v58_apply, round2_bsum, val_main_v56_apply, val_main_v55_apply,
    val_main_cst_16_apply, val_main_v54_apply, val_main_v53_apply, val_main_v52_apply, val_main_cst_15_apply, round2_sum, round2_sumSq]
  simp only [Ideal.addf_def, Ideal.subf_def, Ideal.mulf_def, Ideal.maximumf_def, Ideal.hostUnary_sqrt_def,
    Ideal.hostUnary_sign_def, Ideal.ofBits_def]
  rfl

/-! ### Round 3 -/

/-- The row sum of round 3 at row r. -/
theorem round3_sum (x0 : Arg) (r : Fin 4096) :
    val_main_v80 (F := Ideal) x0 (ix1 r) = refSum fun k => val_main_v79 (F := Ideal) x0 (ix2 r k) := by
  rw [val_main_v80_apply, val_main_cst_23_apply]
  exact congrArg (_ + ·) (Finset.sum_congr rfl fun k _ => congrArg (val_main_v79 (F := Ideal) x0)
    (funext fun d => Fin.ext (by match d with | ⟨0, _⟩ => rfl | ⟨1, _⟩ => rfl)))

/-- The row sum of squares of round 3 at row r. -/
theorem round3_sumSq (x0 : Arg) (r : Fin 4096) :
    val_main_v83 (F := Ideal) x0 (ix1 r) = refSumSq fun k => val_main_v79 (F := Ideal) x0 (ix2 r k) := by
  rw [val_main_v83_apply, val_main_cst_24_apply]
  refine congrArg (_ + ·) (Finset.sum_congr rfl fun k _ => ?_)
  rw [val_main_v82_apply]
  have e : idx_main_v83 (ix1 r) k = ix2 r k :=
    funext fun d => Fin.ext (by match d with | ⟨0, _⟩ => rfl | ⟨1, _⟩ => rfl)
  rw [e]; rfl

/-- The three row quantities of round 3 broadcast along the row: the sum, the sum of squares, the mean. -/
theorem round3_bsum (x0 : Arg) (r j : Fin 4096) :
    val_main_v90 (F := Ideal) x0 (ix2 r j) = val_main_v80 (F := Ideal) x0 (ix1 r) := by
  rw [val_main_v90_apply, val_main_v81_apply]
  exact congrArg (val_main_v80 (F := Ideal) x0) (funext fun d => Fin.ext (by match d with | ⟨0, _⟩ => rfl))

theorem round3_bsumSq (x0 : Arg) (r j : Fin 4096) :
    val_main_v93 (F := Ideal) x0 (ix2 r j) = val_main_v83 (F := Ideal) x0 (ix1 r) := by
  rw [val_main_v93_apply, val_main_v84_apply]
  exact congrArg (val_main_v83 (F := Ideal) x0) (funext fun d => Fin.ext (by match d with | ⟨0, _⟩ => rfl))

theorem round3_bmean (x0 : Arg) (r j : Fin 4096) :
    val_main_v104 (F := Ideal) x0 (ix2 r j)
      = Ideal.div (val_main_v80 (F := Ideal) x0 (ix1 r)) (Ideal.ofBits .f32 0x45800000#32) := by
  rw [val_main_v104_apply, val_main_v101_apply, val_main_v100_apply, val_main_cst_29_apply, val_main_v81_apply]
  exact congrArg (fun i => Ideal.div (val_main_v80 (F := Ideal) x0 i) (Ideal.ofBits .f32 0x45800000#32))
    (funext fun d => Fin.ext (by match d with | ⟨0, _⟩ => rfl))

/-- Round 3 at (r, j): one damping step of the row it starts from. -/
theorem round3 (x0 : Arg) (r j : Fin 4096) :
    val_main_v112 (F := Ideal) x0 (ix2 r j)
      = refStep (Ideal.ofBits .f32 0x00000000#32) (fun k => val_main_v79 (F := Ideal) x0 (ix2 r k)) j := by
  rw [val_main_v112_apply, val_main_v111_apply, val_main_cst_32_apply, val_main_v110_apply, val_main_v109_apply, val_main_v108_apply, val_main_cst_31_apply,
    val_main_v107_apply, val_main_v106_apply, val_main_v105_apply, round3_bmean, val_main_v103_apply, val_main_v102_apply, val_main_cst_30_apply,
    val_main_v99_apply, val_main_v98_apply, val_main_v97_apply, val_main_cst_28_apply, val_main_v96_apply, val_main_v95_apply, val_main_cst_27_apply,
    val_main_v94_apply, round3_bsumSq, val_main_v92_apply, val_main_v91_apply, round3_bsum, val_main_v89_apply, val_main_v88_apply,
    val_main_cst_26_apply, val_main_v87_apply, val_main_v86_apply, val_main_v85_apply, val_main_cst_25_apply, round3_sum, round3_sumSq]
  simp only [Ideal.addf_def, Ideal.subf_def, Ideal.mulf_def, Ideal.maximumf_def, Ideal.hostUnary_sqrt_def,
    Ideal.hostUnary_sign_def, Ideal.ofBits_def]
  rfl

/-! ### The result -/

/-- The reference's result before the final reshape, at (r, j): the closed form of row r, the column minima and the
    column maxima. -/
theorem ref_apply (x0 : Arg) (r j : Fin 4096) :
    val_main_v118 (F := Ideal) x0 (ix2 r j)
      = refRowOut (fun k => val_main_v0 (F := Ideal) x0 (ix2 r k))
          (fun k => Finset.univ.inf fun r' : Fin 4096 => val_main_v0 (F := Ideal) x0 (ix2 r' k))
          (fun k => Finset.univ.sup fun r' : Fin 4096 => val_main_v0 (F := Ideal) x0 (ix2 r' k)) j := by
  have h1 : (fun k => val_main_v13 (F := Ideal) x0 (ix2 r k))
      = refArr (fun k => val_main_v0 (F := Ideal) x0 (ix2 r k)) (colMin x0) (colMax x0) :=
    funext fun k => arr_apply x0 r k
  have h2 : (fun k => val_main_v46 (F := Ideal) x0 (ix2 r k)) = refStep (Ideal.ofBits .f32 0x3BA3D70A#32)
      (refArr (fun k => val_main_v0 (F := Ideal) x0 (ix2 r k)) (colMin x0) (colMax x0)) :=
    funext fun k => (round1 x0 r k).trans (by rw [h1])
  have h3 : (fun k => val_main_v79 (F := Ideal) x0 (ix2 r k)) = refStep (Ideal.ofBits .f32 0x00000000#32)
      (refStep (Ideal.ofBits .f32 0x3BA3D70A#32)
        (refArr (fun k => val_main_v0 (F := Ideal) x0 (ix2 r k)) (colMin x0) (colMax x0))) :=
    funext fun k => (round2 x0 r k).trans (by rw [h2])
  rw [val_main_v118_apply, val_main_v115_apply, round3, h3, brng'_apply, rng_apply, bmn'_apply, mn_apply]
  simp only [Ideal.addf_def, Ideal.mulf_def]
  rfl

/-- The argument read as a matrix, at (r, j), is the argument at (0, r, j). -/
theorem x_apply (x0 : Arg) (r j : Fin 4096) :
    val_main_v0 (F := Ideal) x0 (ix2 r j) = x0 (ix3 (0 : Fin 1) r j) := by
  rw [val_main_v0_apply]
  refine congrArg x0 (funext fun d => Fin.ext ?_)
  have hr := r.isLt; have hj := j.isLt
  match d with
  | ⟨0, _⟩ => rfl
  | ⟨1, _⟩ => show (r.val * 4096 + j.val) / 4096 % 4096 = r.val; omega
  | ⟨2, _⟩ => show (r.val * 4096 + j.val) % 4096 = j.val; omega

/-- The final reshape only renames the index: the result at (0, r, j) is the stage before it at (r, j). -/
theorem out_apply (x0 : Arg) (r j : Fin 4096) :
    val_main_v119 (F := Ideal) x0 (ix3 (0 : Fin 1) r j) = val_main_v118 (F := Ideal) x0 (ix2 r j) := by
  rw [val_main_v119_apply]
  refine congrArg (val_main_v118 (F := Ideal) x0) (funext fun d => Fin.ext ?_)
  have hr := r.isLt; have hj := j.isLt
  match d with
  | ⟨0, _⟩ => show ((0 * 4096 + r.val) * 4096 + j.val) / 4096 = r.val; omega
  | ⟨1, _⟩ => show ((0 * 4096 + r.val) * 4096 + j.val) % 4096 = j.val; omega

/-- The reference's result at (0, r, j) in terms of the argument alone. -/
theorem ref_closed (x0 : Arg) (r j : Fin 4096) :
    val_main_v119 (F := Ideal) x0 (ix3 (0 : Fin 1) r j)
      = refRowOut (fun k => x0 (ix3 (0 : Fin 1) r k))
          (fun k => Finset.univ.inf fun r' : Fin 4096 => x0 (ix3 (0 : Fin 1) r' k))
          (fun k => Finset.univ.sup fun r' : Fin 4096 => x0 (ix3 (0 : Fin 1) r' k)) j := by
  rw [out_apply, ref_apply]
  simp only [x_apply]

end Cert.ReferenceIdeal.RefValue

end
-- ==== Proof.Consts.lean ====
/-
  The float literals of the two programs, each read once as the extended real its f32 word denotes.
  A finite word denotes the dyadic rational (2^23 + T) * 2^(E - 150) (or its negation); the all-ones exponent
  with zero significand denotes an infinity. The three literals of the quadratic are one number cC = 8390657 / 2^35
  and its multiples by 2 and by 4096 (the words differ in the exponent field only), which is what makes the
  kernel's expanded quadratic the reference's factored one exactly.
-/
import Mathlib
import Idealize.ShloMosaic.PureOps.Ideal

noncomputable section

namespace Cert.Math

open Idealize.ShloMosaic

/-- The real the word `0x39800801` denotes: `(2^23 + 2049) * 2^(115 - 150)`. -/
def cC : ℝ := (8390657 : ℝ) / 2 ^ 35

theorem cC_pos : 0 < cC := by unfold cC; positivity

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_inv_4096 : Ideal.ofBits .f32 0x39800000#32 = ((1 / 4096 : ℝ) : EReal) := by
  simp [Ideal.ofBits, Ideal.ieee, -EReal.coe_mul]; norm_num

theorem ofBits_cC : Ideal.ofBits .f32 0x39800801#32 = ((cC : ℝ) : EReal) := by
  simp [Ideal.ofBits, Ideal.ieee, -EReal.coe_mul, cC]; norm_num

theorem ofBits_two_cC : Ideal.ofBits .f32 0x3A000801#32 = ((2 * cC : ℝ) : EReal) := by
  simp [Ideal.ofBits, Ideal.ieee, -EReal.coe_mul, cC]; norm_num

theorem ofBits_4096_cC : Ideal.ofBits .f32 0x3F800801#32 = ((4096 * cC : ℝ) : EReal) := by
  simp [Ideal.ofBits, Ideal.ieee, -EReal.coe_mul, cC]; norm_num

/-- The real the word `0x3DCCCCCD` (the nearest f32 to a tenth) denotes. -/
def cTenth : ℝ := (13421773 : ℝ) / 2 ^ 27

/-- The real the word `0x3BA3D70A` (the nearest f32 to five thousandths) denotes. -/
def cOffset : ℝ := (10737418 : ℝ) / 2 ^ 31

theorem ofBits_cTenth : Ideal.ofBits .f32 0x3DCCCCCD#32 = ((cTenth : ℝ) : EReal) := by
  simp [Ideal.ofBits, Ideal.ieee, -EReal.coe_mul, cTenth]; norm_num

theorem ofBits_cOffset : Ideal.ofBits .f32 0x3BA3D70A#32 = ((cOffset : ℝ) : EReal) := by
  simp [Ideal.ofBits, Ideal.ieee, -EReal.coe_mul, cOffset]; norm_num

theorem ofBits_top : Ideal.ofBits .f32 0x7F800000#32 = (⊤ : EReal) := by
  simp [Ideal.ofBits, Ideal.ieee]

theorem ofBits_bot : Ideal.ofBits .f32 0xFF800000#32 = (⊥ : EReal) := by
  simp [Ideal.ofBits, Ideal.ieee]

end Cert.Math

end
-- ==== Proof.Scalar.lean ====
/-
  The scalar mathematics of the normalisation: on real numbers read as extended reals, the float literals kept as
  the words the programs spell.

  * coercion equations: each of +, -, *, max, min, the square root of a nonnegative real, the sign, a quotient by a
    nonzero real, and a finite sum, of reals is the coercion of the real result;
  * the expanded quadratic (4096 cC) a a - (2 cC) a S + cC SS clipped at 0 is the factored one
    (4096 a a - 2 a S + SS clipped at 0) times cC, because cC > 0;
  * S * (1/4096) = S / 4096, and a * (1 / w) = a / w off w = 0;
  * the sign assembled from two comparisons (|v| > 0 ? (v < 0 ? -1 : 1) : v) is the sign of v;
  * one round of the update, in the kernel's arrangement and in the reference's, is the same real function.
-/
import Mathlib
import Idealize.ShloMosaic.PureOps.Ideal
import Idealize.ShloMosaic.Lib.ValueIdx
import proofs.«165057_j79379585565572_2_alg».proof.Proof.Consts

noncomputable section

namespace Cert.Math

open Idealize.ShloMosaic

/-! ## Coercion equations -/

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- The square root of a nonnegative real is the real square root. -/
theorem sqrt_coe_of_nonneg {q : ℝ} (hq : 0 ≤ q) : Ideal.sqrt (q : EReal) = ((Real.sqrt q : ℝ) : EReal) := by
  rw [Ideal.sqrt_coe, if_neg (not_lt.mpr hq)]

/-- The sign of a real is the real sign. -/
theorem sign_coe (r : ℝ) : Ideal.sign (r : EReal) = ((SignType.sign r : ℝ) : EReal) := rfl

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul]; congr 1; ring

/-- A finite sum of reals is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Adding the zero word changes nothing. -/
theorem add_zero_word (x : EReal) : x + Ideal.ofBits .f32 0x00000000#32 = x := by
  rw [ofBits_zero, EReal.coe_zero, add_zero]

theorem zero_word_add (x : EReal) : Ideal.ofBits .f32 0x00000000#32 + x = x := by
  rw [ofBits_zero, EReal.coe_zero, zero_add]

/-! ## The quadratic under the square root -/

/-- The real the square root is taken of, in the reference's (factored) arrangement. -/
def quadR (a S SS : ℝ) : ℝ := max (4096 * a * a - 2 * a * S + SS) 0 * cC

theorem quadR_nonneg (a S SS : ℝ) : 0 ≤ quadR a S SS :=
  mul_nonneg (le_max_right _ _) cC_pos.le

/-- The kernel's expanded quadratic, clipped at zero, is the real `quadR`. -/
theorem quad_kernel (a S SS : ℝ) :
    max (Ideal.ofBits .f32 0x3F800801#32 * (a : EReal) * (a : EReal) - Ideal.ofBits .f32 0x3A000801#32 * (a : EReal) * (S : EReal)
          + Ideal.ofBits .f32 0x39800801#32 * (SS : EReal)) (Ideal.ofBits .f32 0x00000000#32)
      = ((quadR a S SS : ℝ) : EReal) := by
  rw [ofBits_4096_cC, ofBits_two_cC, ofBits_cC, ofBits_zero]
  simp only [← EReal.coe_mul, ← EReal.coe_sub, ← EReal.coe_add, ← coe_max]
  congr 1
  unfold quadR
  rw [max_mul_of_nonneg _ _ cC_pos.le, zero_mul]
  congr 1; ring

/-- The reference's factored quadratic, clipped at zero and scaled, is the real `quadR`. -/
theorem quad_reference (a S SS : ℝ) :
    max (Ideal.ofBits .f32 0x45800000#32 * (a : EReal) * (a : EReal) - Ideal.ofBits .f32 0x40000000#32 * (a : EReal) * (S : EReal)
          + (SS : EReal)) (Ideal.ofBits .f32 0x00000000#32) * Ideal.ofBits .f32 0x39800801#32
      = ((quadR a S SS : ℝ) : EReal) := by
  rw [ofBits_4096, ofBits_two, ofBits_cC, ofBits_zero]
  simp only [← EReal.coe_mul, ← EReal.coe_sub, ← EReal.coe_add, ← coe_max]
  rfl

/-- (i) The two square roots agree. -/
theorem sqrt_quad_eq (a S SS : ℝ) :
    Ideal.sqrt (max (Ideal.ofBits .f32 0x3F800801#32 * (a : EReal) * (a : EReal) - Ideal.ofBits .f32 0x3A000801#32 * (a : EReal) * (S : EReal)
          + Ideal.ofBits .f32 0x39800801#32 * (SS : EReal)) (Ideal.ofBits .f32 0x00000000#32))
      = Ideal.sqrt (max (Ideal.ofBits .f32 0x45800000#32 * (a : EReal) * (a : EReal) - Ideal.ofBits .f32 0x40000000#32 * (a : EReal) * (S : EReal)
          + (SS : EReal)) (Ideal.ofBits .f32 0x00000000#32) * Ideal.ofBits .f32 0x39800801#32) := by
  rw [quad_kernel, quad_reference]

/-! ## The mean and the normalising quotient -/

/-- (ii) The product with the word of 1/4096 is the quotient by the word of 4096 (any extended real). -/
theorem mul_inv_4096 (S : EReal) :
    S * Ideal.ofBits .f32 0x39800000#32 = Ideal.div S (Ideal.ofBits .f32 0x45800000#32) := by
  rw [ofBits_4096, ofBits_inv_4096, Ideal.div_coe (by norm_num : (4096 : ℝ) ≠ 0)]

/-- On a real, both are the real quotient. -/
theorem mul_inv_4096_coe (S : ℝ) : (S : EReal) * Ideal.ofBits .f32 0x39800000#32 = ((S / 4096 : ℝ) : EReal) := by
  rw [ofBits_inv_4096, ← EReal.coe_mul]; congr 1; ring

theorem div_4096_coe (S : ℝ) : Ideal.div (S : EReal) (Ideal.ofBits .f32 0x45800000#32) = ((S / 4096 : ℝ) : EReal) := by
  rw [ofBits_4096, div_coe_coe S (by norm_num : (4096 : ℝ) ≠ 0)]

/-- (iii) Off a zero divisor, the product with the reciprocal (of the word of one) is the quotient. -/
theorem mul_recip_eq_div (a w : EReal) (hw : w ≠ 0) :
    a * Ideal.div (Ideal.ofBits .f32 0x3F800000#32) w = Ideal.div a w := by
  rw [ofBits_one, EReal.coe_one, Ideal.div, if_neg hw, Ideal.div, if_neg hw, one_mul]

theorem mul_recip_coe (x mn : ℝ) {rng : ℝ} (h : rng ≠ 0) :
    ((x : EReal) - (mn : EReal)) * Ideal.div (Ideal.ofBits .f32 0x3F800000#32) (rng : EReal) = (((x - mn) / rng : ℝ) : EReal) := by
  rw [mul_recip_eq_div _ _ (by exact_mod_cast h), ← EReal.coe_sub, div_coe_coe _ h]

theorem div_sub_coe (x mn : ℝ) {rng : ℝ} (h : rng ≠ 0) :
    Ideal.div ((x : EReal) - (mn : EReal)) (rng : EReal) = (((x - mn) / rng : ℝ) : EReal) := by
  rw [← EReal.coe_sub, div_coe_coe _ h]

/-! ## Comparisons with the zero word, and the range with its zero replaced by one -/

theorem cmpf_def (p : CmpFPredicate) (x y : EReal) : FloatOps.cmpf (F := Ideal) (φ := .f32) p x y = Ideal.cmp p x y := rfl

theorem absf_def (x : EReal) : FloatOps.absf (F := Ideal) (φ := .f32) x = max x (-x) := rfl

theorem cmp_oeq_zero (r : ℝ) :
    Ideal.cmp .oeq (r : EReal) (Ideal.ofBits .f32 0x00000000#32) = if r = 0 then 1#1 else 0#1 := by
  rw [ofBits_zero]
  by_cases h : r = 0
  · subst h; simp [Ideal.cmp]
  · have h' : ¬ ((r : EReal) = ((0 : ℝ) : EReal)) := by exact_mod_cast h
    simp [Ideal.cmp, h, h']

/-- The range with a zero range replaced by one: a nonzero real. -/
def rngR (d : ℝ) : ℝ := if d = 0 then 1 else d

theorem rngR_ne_zero (d : ℝ) : rngR d ≠ 0 := by
  unfold rngR; split_ifs with h
  · exact one_ne_zero
  · exact h

theorem select_oeq_zero (d : ℝ) :
    Scalar.select (Ideal.cmp .oeq (d : EReal) (Ideal.ofBits .f32 0x00000000#32)) (Ideal.ofBits .f32 0x3F800000#32) (d : EReal)
      = ((rngR d : ℝ) : EReal) := by
  rw [cmp_oeq_zero]; unfold rngR
  by_cases h : d = 0
  · rw [if_pos h, if_pos h, ValueIdx.select_one, ofBits_one]
  · rw [if_neg h, if_neg h, ValueIdx.select_zero]

/-! ## The sign from two comparisons -/

/-- (iv) `|v| > 0 ? (v < 0 ? -1 : 1) : v` is the sign of a real `v`. -/
theorem select_sign (v : ℝ) :
    Scalar.select (Ideal.cmp .ogt (max (v : EReal) (-(v : EReal))) (Ideal.ofBits .f32 0x00000000#32))
        (Scalar.select (Ideal.cmp .olt (v : EReal) (Ideal.ofBits .f32 0x00000000#32))
          (Ideal.ofBits .f32 0xBF800000#32) (Ideal.ofBits .f32 0x3F800000#32))
        (v : EReal)
      = Ideal.sign (v : EReal) := by
  rw [ofBits_zero, ofBits_one, ofBits_neg_one, sign_coe, ← EReal.coe_neg v, ← coe_max]
  rcases lt_trichotomy v 0 with h | h | h
  · have h1 : (0 : ℝ) < max v (-v) := lt_max_of_lt_right (by linarith)
    have e1 : Ideal.cmp .ogt ((max v (-v) : ℝ) : EReal) ((0 : ℝ) : EReal) = 1#1 := by
      simp [Ideal.cmp, h1]
    have e2 : Ideal.cmp .olt (v : EReal) ((0 : ℝ) : EReal) = 1#1 := by
      simp [Ideal.cmp, h]
    rw [e1, e2, ValueIdx.select_one, ValueIdx.select_one, sign_neg h]; simp
  · subst h
    have e1 : Ideal.cmp .ogt ((max (0 : ℝ) (-0) : ℝ) : EReal) ((0 : ℝ) : EReal) = 0#1 := by
      simp [Ideal.cmp]
    rw [e1, ValueIdx.select_zero, sign_zero]; simp
  · have h1 : (0 : ℝ) < max v (-v) := lt_max_of_lt_left h
    have e1 : Ideal.cmp .ogt ((max v (-v) : ℝ) : EReal) ((0 : ℝ) : EReal) = 1#1 := by
      simp [Ideal.cmp, h1]
    have e2 : Ideal.cmp .olt (v : EReal) ((0 : ℝ) : EReal) = 0#1 := by
      simp [Ideal.cmp, not_lt.mpr h.le]
    rw [e1, e2, ValueIdx.select_one, ValueIdx.select_zero, sign_pos h]; simp

/-- The same, the comparisons and the absolute value spelt as the float operations at the extended reals. -/
theorem select_sign' (v : ℝ) :
    Scalar.select (FloatOps.cmpf (F := Ideal) (φ := .f32) .ogt (FloatOps.absf (F := Ideal) (φ := .f32) (v : EReal)) (Ideal.ofBits .f32 0x00000000#32))
        (Scalar.select (FloatOps.cmpf (F := Ideal) (φ := .f32) .olt (v : EReal) (Ideal.ofBits .f32 0x00000000#32))
          (Ideal.ofBits .f32 0xBF800000#32) (Ideal.ofBits .f32 0x3F800000#32))
        (v : EReal)
      = Ideal.sign (v : EReal) := select_sign v

end Cert.Math

end
-- ==== Proof.Round.lean ====
/-
  One round of the update, on reals read as extended reals: the kernel's arrangement (expanded quadratic, product with
  1/4096) and the reference's (factored quadratic, quotient by 4096) are one real function of the entry, the row sum and
  the row sum of squares.
-/
import Mathlib
import Idealize.ShloMosaic.PureOps.Ideal
import proofs.«165057_j79379585565572_2_alg».proof.Proof.Consts
import proofs.«165057_j79379585565572_2_alg».proof.Proof.Scalar

noncomputable section

namespace Cert.Math

open Idealize.ShloMosaic

/-- One round on reals: `a (1 - c √(quadratic) sgn (a - S/4096))`, `c` the float nearest a tenth. -/
def roundR (a S SS : ℝ) : ℝ :=
  a * (1 - cTenth * Real.sqrt (quadR a S SS) * (SignType.sign (a - S / 4096) : ℝ))

/-- The kernel's arrangement of one round (its sign already read as the sign) is the real round. -/
theorem round_kernel (a S SS : ℝ) :
    (a : EReal) * (Ideal.ofBits .f32 0x3F800000#32 - Ideal.ofBits .f32 0x3DCCCCCD#32
        * Ideal.sqrt (max (Ideal.ofBits .f32 0x3F800801#32 * (a : EReal) * (a : EReal) - Ideal.ofBits .f32 0x3A000801#32 * (a : EReal) * (S : EReal)
            + Ideal.ofBits .f32 0x39800801#32 * (SS : EReal)) (Ideal.ofBits .f32 0x00000000#32))
        * Ideal.sign ((a : EReal) - (S : EReal) * Ideal.ofBits .f32 0x39800000#32))
      = ((roundR a S SS : ℝ) : EReal) := by
  rw [quad_kernel, sqrt_coe_of_nonneg (quadR_nonneg a S SS), mul_inv_4096_coe, ← EReal.coe_sub, sign_coe,
    ofBits_one, ofBits_cTenth, ← EReal.coe_mul, ← EReal.coe_mul, ← EReal.coe_sub, ← EReal.coe_mul]
  rfl

/-- The reference's arrangement of one round is the same real round. -/
theorem round_reference (a S SS : ℝ) :
    (a : EReal) * (Ideal.ofBits .f32 0x3F800000#32 - Ideal.ofBits .f32 0x3DCCCCCD#32
        * Ideal.sqrt (max (Ideal.ofBits .f32 0x45800000#32 * (a : EReal) * (a : EReal) - Ideal.ofBits .f32 0x40000000#32 * (a : EReal) * (S : EReal)
            + (SS : EReal)) (Ideal.ofBits .f32 0x00000000#32) * Ideal.ofBits .f32 0x39800801#32)
        * Ideal.sign ((a : EReal) - Ideal.div (S : EReal) (Ideal.ofBits .f32 0x45800000#32)))
      = ((roundR a S SS : ℝ) : EReal) := by
  rw [quad_reference, sqrt_coe_of_nonneg (quadR_nonneg a S SS), div_4096_coe, ← EReal.coe_sub, sign_coe,
    ofBits_one, ofBits_cTenth, ← EReal.coe_mul, ← EReal.coe_mul, ← EReal.coe_sub, ← EReal.coe_mul]
  rfl

/-- Adding the offset word after a round. -/
theorem add_offset (r : ℝ) : (r : EReal) + Ideal.ofBits .f32 0x3BA3D70A#32 = ((r + cOffset : ℝ) : EReal) := by
  rw [ofBits_cOffset, ← EReal.coe_add]

/-- The affine map back: `a * rng + mn` on reals. -/
theorem mul_add_coe (a rng mn : ℝ) : (a : EReal) * (rng : EReal) + (mn : EReal) = ((a * rng + mn : ℝ) : EReal) := by
  rw [← EReal.coe_mul, ← EReal.coe_add]

end Cert.Math

end
-- ==== Proof.RowEq.lean ====
/-
  The kernel's row and the reference's row are one function on real data.

  For a real row the two arrangements of a damping round are the same real function of the entry, the row's sum and
  its sum of squares (a finite sum of reals being a real), so the three rounds, the offset after the first, and the
  affine maps in and out agree entry by entry.
-/
import Mathlib
import Idealize.ShloMosaic.PureOps.Ideal
import proofs.«165057_j79379585565572_2_alg».proof.Proof.Consts
import proofs.«165057_j79379585565572_2_alg».proof.Proof.Scalar
import proofs.«165057_j79379585565572_2_alg».proof.Proof.Round
import proofs.«165057_j79379585565572_2_alg».proof.Proof.KerRow
import proofs.«165057_j79379585565572_2_alg».proof.Proof.RefRow

noncomputable section

open scoped BigOperators

namespace Cert.Math

open Idealize.ShloMosaic

/-- One damping round of a real row: every entry by `roundR` with the row's sum and sum of squares. -/
def stepRow (ar : Fin 4096 → ℝ) (j : Fin 4096) : ℝ :=
  roundR (ar j) (∑ k : Fin 4096, ar k) (∑ k : Fin 4096, ar k * ar k)

theorem sum_coe_row (ar : Fin 4096 → ℝ) :
    (∑ k : Fin 4096, ((ar k : ℝ) : EReal)) = ((∑ k : Fin 4096, ar k : ℝ) : EReal) := coe_sum _ _

theorem sum_sq_coe_row (ar : Fin 4096 → ℝ) :
    (∑ k : Fin 4096, ((ar k : ℝ) : EReal) * ((ar k : ℝ) : EReal)) = ((∑ k : Fin 4096, ar k * ar k : ℝ) : EReal) := by
  rw [← coe_sum]; exact Finset.sum_congr rfl fun k _ => (EReal.coe_mul _ _).symm

/-- The kernel's round of a real row is the real round. -/
theorem kerStep_coe (ar : Fin 4096 → ℝ) :
    Cert.KerRow.kerStep (fun k => ((ar k : ℝ) : EReal)) = fun j => ((stepRow ar j : ℝ) : EReal) := by
  funext j
  unfold Cert.KerRow.kerStep Cert.KerRow.kerRoot Cert.KerRow.kerCen
  rw [Cert.KerRow.kerSgn_eq_sign]
  simp only [sum_coe_row, sum_sq_coe_row]
  exact round_kernel _ _ _

/-- The reference's round of a real row is the real round plus the offset it is given. -/
theorem refStep_coe (eps : EReal) (ar : Fin 4096 → ℝ) :
    Cert.RefRow.refStep eps (fun k => ((ar k : ℝ) : EReal)) = fun j => ((stepRow ar j : ℝ) : EReal) + eps := by
  funext j
  unfold Cert.RefRow.refStep Cert.RefRow.refRoot Cert.RefRow.refCen Cert.RefRow.refSum Cert.RefRow.refSumSq
  simp only [sum_coe_row, sum_sq_coe_row, zero_word_add]
  rw [round_reference]
  rfl

/-- The kernel's normalised row of real data. -/
theorem kerArr_coe (xr mnr mxr : Fin 4096 → ℝ) :
    Cert.KerRow.kerArr (fun k => ((xr k : ℝ) : EReal)) (fun k => ((mnr k : ℝ) : EReal)) (fun k => ((mxr k : ℝ) : EReal))
      = fun j => (((xr j - mnr j) / rngR (mxr j - mnr j) : ℝ) : EReal) := by
  funext j
  show ((xr j : EReal) - (mnr j : EReal)) * Ideal.div (Ideal.ofBits .f32 0x3F800000#32)
      (Scalar.select (Ideal.cmp .oeq ((mxr j : EReal) - (mnr j : EReal)) (Ideal.ofBits .f32 0x00000000#32))
        (Ideal.ofBits .f32 0x3F800000#32) ((mxr j : EReal) - (mnr j : EReal))) = _
  rw [← EReal.coe_sub (mxr j) (mnr j), select_oeq_zero, mul_recip_coe _ _ (rngR_ne_zero _)]

/-- The reference's normalised row of real data: the same real row. -/
theorem refArr_coe (xr mnr mxr : Fin 4096 → ℝ) :
    Cert.RefRow.refArr (fun k => ((xr k : ℝ) : EReal)) (fun k => ((mnr k : ℝ) : EReal)) (fun k => ((mxr k : ℝ) : EReal))
      = fun j => (((xr j - mnr j) / rngR (mxr j - mnr j) : ℝ) : EReal) := by
  funext j
  show Ideal.div ((xr j : EReal) - (mnr j : EReal))
      (Scalar.select (Ideal.cmp .oeq ((mxr j : EReal) - (mnr j : EReal)) (Ideal.ofBits .f32 0x00000000#32))
        (Ideal.ofBits .f32 0x3F800000#32) ((mxr j : EReal) - (mnr j : EReal))) = _
  rw [← EReal.coe_sub (mxr j) (mnr j), select_oeq_zero, div_sub_coe _ _ (rngR_ne_zero _)]

theorem rng_eq : Cert.KerRow.kerRng = Cert.RefRow.refRng := rfl

/-- On real data the kernel's row is the reference's row. -/
theorem rowOut_eq (x mn mx : Fin 4096 → EReal) (hx : ∀ k, ∃ q : ℝ, x k = (q : EReal))
    (hmn : ∀ k, ∃ q : ℝ, mn k = (q : EReal)) (hmx : ∀ k, ∃ q : ℝ, mx k = (q : EReal)) :
    Cert.KerRow.kerRowOut x mn mx = Cert.RefRow.refRowOut x mn mx := by
  choose xr hxr using hx
  choose mnr hmnr using hmn
  choose mxr hmxr using hmx
  obtain rfl : x = fun k => ((xr k : ℝ) : EReal) := funext hxr
  obtain rfl : mn = fun k => ((mnr k : ℝ) : EReal) := funext hmnr
  obtain rfl : mx = fun k => ((mxr k : ℝ) : EReal) := funext hmxr
  funext j
  unfold Cert.KerRow.kerRowOut Cert.RefRow.refRowOut
  simp only [kerArr_coe, refArr_coe, kerStep_coe, refStep_coe, add_offset, add_zero_word, rng_eq]

end Cert.Math

end
-- ==== Proof.Finite.lean ====
/-
  The precondition read back: if the printed predicate (every entry's absolute value is below +∞, all of them) answers 1,
  every entry of the array is a real number. An extended real whose absolute value max x (-x) lies strictly below ⊤ is
  neither ⊤ nor ⊥.
-/
import Mathlib
import Idealize.ShloMosaic.PureOps.Ideal
import Idealize.ShloMosaic.Lib.ValueIdx
import Idealize.ShloMosaic.Lib.ReduceAll
import proofs.«165057_j79379585565572_2_alg».proof.Pre_finite_inputs
import proofs.«165057_j79379585565572_2_alg».proof.Proof.Gen.Pre_finite_inputs

noncomputable section

namespace Cert.Math

open Idealize.ShloMosaic

instance : Subsingleton Cert.Pre_finite_inputs.S_.Idx := ⟨fun a b => funext fun d => d.elim0⟩

/-- An extended real whose absolute value compares below the word of `+∞` is a real. -/
theorem real_of_abs_lt_top (x : EReal)
    (h : Ideal.cmp .olt (max x (-x)) (Ideal.ofBits .f32 0x7F800000#32) = 1#1) : ∃ q : ℝ, x = (q : EReal) := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact ⟨r, rfl⟩

/-- Under the precondition every entry of the argument is a real number. -/
theorem finite_of_pre (a : FVec Ideal Cert.Pre_finite_inputs.S1x4096x4096 .f32)
    (h : Cert.Pre_finite_inputs.fn (F := Ideal) a = fun _ => 1#1) : ∀ i, ∃ q : ℝ, a i = (q : EReal) := by
  have e := congrFun h ValueIdx.ix0
  dsimp only [Cert.Pre_finite_inputs.fn] at e
  intro i
  have hi := Host.reduce_andi_all _ _ _ _ _ e i
  exact real_of_abs_lt_top (a i) hi

end Cert.Math

end
-- ==== Proof.Bridge.lean ====
/-
  The two results are one array. The reference's result at row r and column j is its row function of row r of the
  input matrix and the column minima and maxima over all 4096 rows. The kernel's second pass leaves at (r, j) its row
  function of the same row and of the one-row operands the host reduced from the first pass's sixteen partial rows;
  partial row ρ holds the column minima (maxima) over the 2048 rows of half ρ/8, so the minimum (maximum) over the
  sixteen partial rows is the column minimum (maximum) over all rows. On a finite input all these are real numbers,
  where the two row functions agree.
-/
import proofs.«165057_j79379585565572_2_alg».proof.Proof.KI.Run
import proofs.«165057_j79379585565572_2_alg».proof.Proof.KI.Value0
import proofs.«165057_j79379585565572_2_alg».proof.Proof.KI.Value1
import proofs.«165057_j79379585565572_2_alg».proof.Proof.KI.HostMinMax
import proofs.«165057_j79379585565572_2_alg».proof.Proof.RefStages
import proofs.«165057_j79379585565572_2_alg».proof.Proof.RowEq
import proofs.«165057_j79379585565572_2_alg».proof.Proof.InfSup
import proofs.«165057_j79379585565572_2_alg».proof.Proof.Finite

noncomputable section

namespace Cert.Bridge

open Idealize.ShloMosaic Idealize.ShloMosaic.TcCoe Idealize.SL.Sem Idealize.ShloMosaic.ValueIdx
open Cert.KernelIdeal Cert.KernelIdeal.Gen Cert.KernelIdeal.Hand

variable [Cert.KernelIdeal.Facts] [Cert.ReferenceIdeal.Facts] [Cert.Pre_finite_inputs.Facts]
variable (m : (ℓ : Loc nD τ sig) → Buf (Elt Ideal) ℓ) (ρ : Dev nD → PrngReg) (c : Dev nD)

/-- The argument as a 4096×4096 matrix. -/
abbrev X : S4096x4096.Idx → EReal := V1 (F := Ideal) m ρ c main_v0

/-- The matrix is the reference's first stage of the same argument. -/
theorem X_eq_ref : X m ρ c = Cert.ReferenceIdeal.ReadP.val_main_v0 (F := Ideal) (m ((c.tc : Thread nD τ).loc main_arg0)) :=
  (V1_main_v0 (F := Ideal) m ρ c).trans rfl

/-- On a finite argument every entry of the matrix is a real number. -/
theorem X_real (hfin : ∀ i, ∃ q : ℝ, m ((c.tc : Thread nD τ).loc main_arg0) i = (q : EReal)) (i : S4096x4096.Idx) :
    ∃ q : ℝ, X m ρ c i = (q : EReal) := by
  rw [X_eq_ref, Cert.ReferenceIdeal.ReadP.val_main_v0_apply]
  exact hfin _

/-- The second pass's row of minima is the column minimum over all rows. -/
theorem mn_eq (k : Fin 4096) :
    V3 (F := Ideal) m ρ c main_v3 (ix2 (0 : Fin 1) k) = Finset.univ.inf fun r : Fin 4096 => X m ρ c (ix2 r k) := by
  rw [V3_main_v3, hostMin_apply, V2_main_v1_0]
  simp only [final0_1_apply (V1 (F := Ideal) m ρ) c (X m ρ c) rfl]
  exact Cert.Math.inf_partials (fun r => X m ρ c (ix2 r k))

/-- The second pass's row of maxima is the column maximum over all rows. -/
theorem mx_eq (k : Fin 4096) :
    V3 (F := Ideal) m ρ c main_v5 (ix2 (0 : Fin 1) k) = Finset.univ.sup fun r : Fin 4096 => X m ρ c (ix2 r k) := by
  rw [V3_main_v5, hostMax_apply, V2_main_v1_1]
  simp only [final0_2_apply (V1 (F := Ideal) m ρ) c (X m ρ c) rfl]
  exact Cert.Math.sup_partials (fun r => X m ρ c (ix2 r k))

/-- THE BRIDGE: on a finite argument the reference's result term is what the kernel's run leaves in its result. -/
theorem result_eq (hpre : Cert.Pre_finite_inputs.fn (F := Ideal) (m ((c.tc : Thread nD τ).loc main_arg0)) = fun _ => 1#1) :
    Cert.ReferenceIdeal.ReadP.val_main_v119 (F := Ideal) (m ((c.tc : Thread nD τ).loc main_arg0))
      = W5 (F := Ideal) m ρ c (Proc.devRef .tc main_v7) := by
  have hfin := Cert.Math.finite_of_pre _ hpre
  have hX := X_real m ρ c hfin
  rw [W5_main_v7]
  suffices key : Cert.ReferenceIdeal.ReadP.val_main_v118 (F := Ideal) (m ((c.tc : Thread nD τ).loc main_arg0))
      = ((dat1 (V3 (F := Ideal) m ρ) c).arrAt 3 cfg1.N : S4096x4096.Idx → EReal) by
    unfold Cert.ReferenceIdeal.ReadP.val_main_v119; rw [key]
  funext i
  obtain ⟨r, j, rfl⟩ : ∃ (r : Fin 4096) (j : Fin 4096), i = ix2 r j := ⟨i 0, i 1, eq_ix2 i⟩
  rw [Cert.ReferenceIdeal.RefValue.ref_apply, value1]
  have e0 : (fun k => V3 (F := Ideal) m ρ c main_v0 (ix2 r k)) = fun k => X m ρ c (ix2 r k) := by
    funext k; rw [V3_main_v0]
  have e1 : (fun k => V3 (F := Ideal) m ρ c main_v3 (ix2 (0 : Fin 1) k)) = fun k => Finset.univ.inf fun r' : Fin 4096 => X m ρ c (ix2 r' k) :=
    funext fun k => mn_eq m ρ c k
  have e2 : (fun k => V3 (F := Ideal) m ρ c main_v5 (ix2 (0 : Fin 1) k)) = fun k => Finset.univ.sup fun r' : Fin 4096 => X m ρ c (ix2 r' k) :=
    funext fun k => mx_eq m ρ c k
  rw [e0, e1, e2, ← X_eq_ref m ρ c]
  exact (congrFun (Cert.Math.rowOut_eq _ _ _ (fun k => hX _)
    (fun k => Cert.Math.exists_real_inf _ Finset.univ_nonempty _ (fun r' _ => hX _))
    (fun k => Cert.Math.exists_real_sup _ Finset.univ_nonempty _ (fun r' _ => hX _))) j).symm

end Cert.Bridge

end
-- ==== Proof.lean ====
/-
  The certificate of the column-normalised, three-round damped rows kernel against its array-level reference.

  The kernel runs in two passes. The first pass streams the 4096×4096 input by blocks of 256 rows and keeps, for
  each half of the rows, a running column minimum and maximum; the host then takes the minimum (maximum) of the
  sixteen partial rows, which is the column minimum (maximum) over all 4096 rows. The second pass, row by row,
  maps the row into the unit range with the reciprocal of the column range, applies three damping rounds
  a ← a · (1 − 0.1 · √max(c·(4096·a² − 2·a·S + SS), 0) · sgn(a − S/4096)) (S the row sum, SS the row sum of squares,
  0.005 added after the first round), and maps back. The kernel spells the quadratic with the three coefficients
  4096·c, 2·c, c (c the single-precision value nearest 1/4095: the three words share one mantissa, so the products
  by powers of two are exact) and the mean as S·2⁻¹²; the reference spells max(4096·a² − 2·a·S + SS, 0)·c and S/4096,
  divides by the range and calls the sign function. On finite inputs every intermediate value is a real number, where
  distributivity and cancellation hold, so the two spellings are one function; the kernel's sign construction
  (±1 by the sign where the magnitude is positive, the value itself at zero) is the sign function.

  Frames: each kernel program is five segments (reshape, first pass, host reductions, second pass, reshape); the
  run of the segments ends with every unscoped buffer at a fold of the launch memory, from which the unchanged
  argument and the result are read. The reference's frame is its run with the result dropped.
-/
import proofs.«165057_j79379585565572_2_alg».proof.Defs
import proofs.«165057_j79379585565572_2_alg».proof.Proof.Gen.Kernel
import proofs.«165057_j79379585565572_2_alg».proof.Proof.Gen.KernelIdeal
import proofs.«165057_j79379585565572_2_alg».proof.Proof.Gen.ReferenceIdeal
import proofs.«165057_j79379585565572_2_alg».proof.Proof.Gen.Pre_finite_inputs
import proofs.«165057_j79379585565572_2_alg».proof.Proof.K.Run
import proofs.«165057_j79379585565572_2_alg».proof.Proof.KI.Run
import proofs.«165057_j79379585565572_2_alg».proof.Proof.RefRun
import proofs.«165057_j79379585565572_2_alg».proof.Proof.Bridge
import Idealize.ShloMosaic.Adequacy
import Idealize.ShloMosaic.Init

noncomputable section

namespace Cert.Proof

open Idealize.ShloMosaic Idealize.SL.Sem

/-- The word-level kernel runs to the end, faults nowhere and leaves its argument as launched. -/
theorem frame_k [Cert.Kernel.Facts] [Cert.Pre_finite_inputs.Facts] : Cert.frame_Kernel := fun m ρ _ =>
  (θ_run (Cert.Kernel.defs (F := Bits)) _ _).mono (fun _ h c => (h c).2) (Cert.Kernel.Hand.run_result (F := Bits) m ρ)

/-- So does the idealized kernel. -/
theorem frame_ki [Cert.KernelIdeal.Facts] [Cert.Pre_finite_inputs.Facts] : Cert.frame_KernelIdeal := fun m ρ _ =>
  (θ_run (Cert.KernelIdeal.defs (F := Ideal)) _ _).mono (fun _ h c => (h c).2) (Cert.KernelIdeal.Hand.run_result (F := Ideal) m ρ)

/-- The reference's frame is its run with the result dropped. -/
theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2) (Cert.ReferenceIdeal.ValueP.run (F := Ideal) m ρ)

/-- The three places where the kernel builds ±1 from a value's sign bit read, on the extended reals, as −1 below zero and 1 elsewhere. -/
theorem preserves : Cert.preserves_Kernel_KernelIdeal :=
  ⟨IdealRules.sign_bit.statement Cert.KernelIdeal.S256x4096 .f32, IdealRules.sign_bit.statement Cert.KernelIdeal.S256x4096 .f32,
    IdealRules.sign_bit.statement Cert.KernelIdeal.S256x4096 .f32⟩

/-- From memories agreeing on the (finite) argument both programs end with the same result array. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Hand.W5 m ρ c (Proc.devRef .tc Cert.KernelIdeal.main_v7), Cert.KernelIdeal.Hand.run_result (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  rw [hagree c]
  exact Cert.Bridge.result_eq m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
